-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S82x1024 : Shape := ⟨2, ![82, 1024]⟩
abbrev S82 : Shape := ⟨1, ![82]⟩
abbrev S324x1024 : Shape := ⟨2, ![324, 1024]⟩
abbrev S324 : Shape := ⟨1, ![324]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S82x1024 : S_.BroadcastsInDim S82x1024 (![] : Fin 0 → Fin S82x1024.rank)
  reducesTo_S82x1024_S_d0_1 : S82x1024.ReducesTo [0, 1] S_
  bcast_S_S82 : S_.BroadcastsInDim S82 (![] : Fin 0 → Fin S82.rank)
  reducesTo_S82_S_d0 : S82.ReducesTo [0] S_
  bcast_S_S324x1024 : S_.BroadcastsInDim S324x1024 (![] : Fin 0 → Fin S324x1024.rank)
  reducesTo_S324x1024_S_d0_1 : S324x1024.ReducesTo [0, 1] S_
  bcast_S_S324 : S_.BroadcastsInDim S324 (![] : Fin 0 → Fin S324.rank)
  reducesTo_S324_S_d0 : S324.ReducesTo [0] S_

variable [Facts]

def fn_part1 {F : FTy → Type} [FloatOps F] (main_arg4 : FVec F S324 .f32) (main_v13 : IVec S_ 1) (main_v16 : IVec S324x1024 1) : IVec S_ 1 :=
  let main_c_5 : IVec S_ 1 := constantI S_ 1 1#1
  let main_v17 : IVec S_ 1 := (fun x v => Host.reduce IntOp.andi x v reducesTo_S324x1024_S_d0_1 h_S_) main_v16 main_c_5
  let main_v18 : IVec S_ 1 := andi main_v13 main_v17
  let main_v19 : FVec F S324 .f32 := Host.absf main_arg4
  let main_cst_6 : FVec F S_ .f32 := constant S_ .f32 0x7F800000#32
  let main_v20 : FVec F S324 .f32 := broadcastInDim S324 ![] bcast_S_S324 main_cst_6
  let main_v21 : IVec S324 1 := cmpf .olt main_v19 main_v20
  let main_c_7 : IVec S_ 1 := constantI S_ 1 1#1
  let main_v22 : IVec S_ 1 := (fun x v => Host.reduce IntOp.andi x v reducesTo_S324_S_d0 h_S_) main_v21 main_c_7
  let main_v23 : IVec S_ 1 := andi main_v18 main_v22
  main_v23

def fn {F : FTy → Type} [FloatOps F] (main_arg0 : FVec F S20000x1024 .f32) (main_arg1 : FVec F S82x1024 .f32) (main_arg2 : FVec F S82 .f32) (main_arg3 : FVec F S324x1024 .f32) (main_arg4 : FVec F S324 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S82x1024 .f32 := Host.absf main_arg1
  let main_cst_0 : FVec F S_ .f32 := constant S_ .f32 0x7F800000#32
  let main_v5 : FVec F S82x1024 .f32 := broadcastInDim S82x1024 ![] bcast_S_S82x1024 main_cst_0
  let main_v6 : IVec S82x1024 1 := cmpf .olt main_v4 main_v5
  let main_c_1 : IVec S_ 1 := constantI S_ 1 1#1
  let main_v7 : IVec S_ 1 := (fun x v => Host.reduce IntOp.andi x v reducesTo_S82x1024_S_d0_1 h_S_) main_v6 main_c_1
  let main_v8 : IVec S_ 1 := andi main_v3 main_v7
  let main_v9 : FVec F S82 .f32 := Host.absf main_arg2
  let main_cst_2 : FVec F S_ .f32 := constant S_ .f32 0x7F800000#32
  let main_v10 : FVec F S82 .f32 := broadcastInDim S82 ![] bcast_S_S82 main_cst_2
  let main_v11 : IVec S82 1 := cmpf .olt main_v9 main_v10
  let main_c_3 : IVec S_ 1 := constantI S_ 1 1#1
  let main_v12 : IVec S_ 1 := (fun x v => Host.reduce IntOp.andi x v reducesTo_S82_S_d0 h_S_) main_v11 main_c_3
  let main_v13 : IVec S_ 1 := andi main_v8 main_v12
  let main_v14 : FVec F S324x1024 .f32 := Host.absf main_arg3
  let main_cst_4 : FVec F S_ .f32 := constant S_ .f32 0x7F800000#32
  let main_v15 : FVec F S324x1024 .f32 := broadcastInDim S324x1024 ![] bcast_S_S324x1024 main_cst_4
  let main_v16 : IVec S324x1024 1 := cmpf .olt main_v14 main_v15
  fn_part1 (F := F) main_arg4 main_v13 main_v16
-- ==== Kernel.lean ====
abbrev S20000x1024 : Shape := ⟨2, ![20000, 1024]⟩
abbrev S82x1024 : Shape := ⟨2, ![82, 1024]⟩
abbrev S82 : Shape := ⟨1, ![82]⟩
abbrev S324x1024 : Shape := ⟨2, ![324, 1024]⟩
abbrev S324 : Shape := ⟨1, ![324]⟩
abbrev S1x82 : Shape := ⟨2, ![1, 82]⟩
abbrev S1x324 : Shape := ⟨2, ![1, 324]⟩
abbrev S20000x82 : Shape := ⟨2, ![20000, 82]⟩
abbrev S20000x324 : Shape := ⟨2, ![20000, 324]⟩
abbrev S2000x256 : Shape := ⟨2, ![2000, 256]⟩
abbrev S82x256 : Shape := ⟨2, ![82, 256]⟩
abbrev S324x256 : Shape := ⟨2, ![324, 256]⟩
abbrev S2000x82 : Shape := ⟨2, ![2000, 82]⟩
abbrev S2000x324 : Shape := ⟨2, ![2000, 324]⟩

abbrev nBuf : Space → Nat
  | .hbm => 9
  | .vmem => 12
  | .smem => 0
  | _ => 0

abbrev bufTy : (tb : Table) → Fin (tcTables nBuf tb) → BufTy
  | .hbm, ⟨0, _⟩ => ⟨S20000x1024, .f32⟩
  | .hbm, ⟨1, _⟩ => ⟨S82x1024, .f32⟩
  | .hbm, ⟨2, _⟩ => ⟨S82, .f32⟩
  | .hbm, ⟨3, _⟩ => ⟨S324x1024, .f32⟩
  | .hbm, ⟨4, _⟩ => ⟨S324, .f32⟩
  | .hbm, ⟨5, _⟩ => ⟨S1x82, .f32⟩
  | .hbm, ⟨6, _⟩ => ⟨S1x324, .f32⟩
  | .hbm, ⟨7, _⟩ => ⟨S20000x82, .f32⟩
  | .hbm, ⟨8, _⟩ => ⟨S20000x324, .f32⟩
  | .local _ .vmem, ⟨0, _⟩ => ⟨S2000x256, .f32⟩
  | .local _ .vmem, ⟨1, _⟩ => ⟨S2000x256, .f32⟩
  | .local _ .vmem, ⟨2, _⟩ => ⟨S82x256, .f32⟩
  | .local _ .vmem, ⟨3, _⟩ => ⟨S82x256, .f32⟩
  | .local _ .vmem, ⟨4, _⟩ => ⟨S324x256, .f32⟩
  | .local _ .vmem, ⟨5, _⟩ => ⟨S324x256, .f32⟩
  | .local _ .vmem, ⟨6, _⟩ => ⟨S1x82, .f32⟩
  | .local _ .vmem, ⟨7, _⟩ => ⟨S1x324, .f32⟩
  | .local _ .vmem, ⟨8, _⟩ => ⟨S2000x82, .f32⟩
  | .local _ .vmem, ⟨9, _⟩ => ⟨S2000x82, .f32⟩
  | .local _ .vmem, ⟨10, _⟩ => ⟨S2000x324, .f32⟩
  | .local _ .vmem, ⟨11, _⟩ => ⟨S2000x324, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![10, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_6 : BitVec 32 := 0#32
  let v10 : BitVec 1 := Scalar.cmpi .ne v9 c0_i32_6
  v10

def k0_cond2 (i : grid0.Coords) : BitVec 1 :=
  let arg1 : BitVec 32 := BitVec.ofNat 32 (i 1).val
  let c0_i32_7 : BitVec 32 := 0#32
  let v11 : BitVec 1 := Scalar.cmpi .ne arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S82x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S324x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x82 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x324 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2000x82 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2000x324 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S82_S1x82 : S82.ShapeCasts S1x82
  shapeCasts_S324_S1x324 : S324.ShapeCasts S1x324
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S82x256_S82x256_0_0 : ∀ a, (![0, 0] : Fin 2 → Nat) a + S82x256.size a ≤ S82x256.size a
  h_S82x256 : 0 < S82x256.numel
  inb_S324x256_S324x256_0_0 : ∀ a, (![0, 0] : Fin 2 → Nat) a + S324x256.size a ≤ S324x256.size a
  h_S324x256 : 0 < S324x256.numel
  inb_S1x82_S1x82_0_0 : ∀ a, (![0, 0] : Fin 2 → Nat) a + S1x82.size a ≤ S1x82.size a
  h_S1x82 : 0 < S1x82.numel
  shapeCasts_S1x82_S1x82 : S1x82.ShapeCasts S1x82
  broadcasts_S1x82_S2000x82 : S1x82.Broadcasts S2000x82
  inb_S2000x82_S2000x82_0_0 : ∀ a, (![0, 0] : Fin 2 → Nat) a + S2000x82.size a ≤ S2000x82.size a
  h_S2000x82 : 0 < S2000x82.numel
  inb_S1x324_S1x324_0_0 : ∀ a, (![0, 0] : Fin 2 → Nat) a + S1x324.size a ≤ S1x324.size a
  h_S1x324 : 0 < S1x324.numel
  shapeCasts_S1x324_S1x324 : S1x324.ShapeCasts S1x324
  broadcasts_S1x324_S2000x324 : S1x324.Broadcasts S2000x324
  inb_S2000x324_S2000x324_0_0 : ∀ a, (![0, 0] : Fin 2 → Nat) a + S2000x324.size a ≤ S2000x324.size a
  h_S2000x324 : 0 < S2000x324.numel
  shapeCasts_S2000x82_S2000x82 : S2000x82.ShapeCasts S2000x82
  shapeCasts_S2000x324_S2000x324 : S2000x324.ShapeCasts S2000x324
  dot_S2000x256_S82x256_S2000x82_1_1_0_0_n_n_wf : DotDims.WF S2000x256 S82x256 S2000x82 [1] [1] [0] [0] [] []
  dot_S2000x256_S324x256_S2000x324_1_1_0_0_n_n_wf : DotDims.WF S2000x256 S324x256 S2000x324 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x1024.size a
  hwx0_0 : ∀ i : grid0.Coords, EltTy.bits .f32 = 32 ∨ (Rect.block (s := S20000x1024) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S82x256.size a ≤ S82x1024.size a
  hwx0_1 : ∀ i : grid0.Coords, EltTy.bits .f32 = 32 ∨ (Rect.block (s := S82x1024) S82x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S324x256.size a ≤ S324x1024.size a
  hwx0_2 : ∀ i : grid0.Coords, EltTy.bits .f32 = 32 ∨ (Rect.block (s := S324x1024) S324x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x82.size a ≤ S1x82.size a
  hwx0_3 : ∀ i : grid0.Coords, EltTy.bits .f32 = 32 ∨ (Rect.block (s := S1x82) S1x82.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x324.size a ≤ S1x324.size a
  hwx0_4 : ∀ i : grid0.Coords, EltTy.bits .f32 = 32 ∨ (Rect.block (s := S1x324) S1x324.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x82.size a ≤ S20000x82.size a
  hwx0_5 : ∀ i : grid0.Coords, EltTy.bits .f32 = 32 ∨ (Rect.block (s := S20000x82) S2000x82.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x324.size a ≤ S20000x324.size a
  hwx0_6 : ∀ i : grid0.Coords, EltTy.bits .f32 = 32 ∨ (Rect.block (s := S20000x324) S2000x324.size (cc0_transform_6 i) (hinb0_6 i)).WholeWords (EltTy.packing .f32)

variable [Facts₀]

def dot_S2000x256_S82x256_S2000x82_1_1_0_0_n_n : DotDims S2000x256 S82x256 S2000x82 where
  lhsContracting := [1]
  rhsContracting := [1]
  lhsNonContracting := [0]
  rhsNonContracting := [0]
  lhsBatch := []
  rhsBatch := []
  wf := dot_S2000x256_S82x256_S2000x82_1_1_0_0_n_n_wf
def dot_S2000x256_S324x256_S2000x324_1_1_0_0_n_n : DotDims S2000x256 S324x256 S2000x324 where
  lhsContracting := [1]
  rhsContracting := [1]
  lhsNonContracting := [0]
  rhsNonContracting := [0]
  lhsBatch := []
  rhsBatch := []
  wf := dot_S2000x256_S324x256_S2000x324_1_1_0_0_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S82x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S324x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x82.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x324.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2000x82.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2000x324.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S20000x1024 : Shape := ⟨2, ![20000, 1024]⟩
abbrev S82x1024 : Shape := ⟨2, ![82, 1024]⟩
abbrev S82 : Shape := ⟨1, ![82]⟩
abbrev S324x1024 : Shape := ⟨2, ![324, 1024]⟩
abbrev S324 : Shape := ⟨1, ![324]⟩
abbrev S1024x82 : Shape := ⟨2, ![1024, 82]⟩
abbrev S20000x82 : Shape := ⟨2, ![20000, 82]⟩
abbrev S1x82 : Shape := ⟨2, ![1, 82]⟩
abbrev S1024x324 : Shape := ⟨2, ![1024, 324]⟩
abbrev S20000x324 : Shape := ⟨2, ![20000, 324]⟩
abbrev S1x324 : Shape := ⟨2, ![1, 324]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S82x1024, .f32⟩
  | .hbm, ⟨2, _⟩ => ⟨S82, .f32⟩
  | .hbm, ⟨3, _⟩ => ⟨S324x1024, .f32⟩
  | .hbm, ⟨4, _⟩ => ⟨S324, .f32⟩
  | .hbm, ⟨5, _⟩ => ⟨S1024x82, .f32⟩
  | .hbm, ⟨6, _⟩ => ⟨S20000x82, .f32⟩
  | .hbm, ⟨7, _⟩ => ⟨S1x82, .f32⟩
  | .hbm, ⟨8, _⟩ => ⟨S20000x82, .f32⟩
  | .hbm, ⟨9, _⟩ => ⟨S20000x82, .f32⟩
  | .hbm, ⟨10, _⟩ => ⟨S1024x324, .f32⟩
  | .hbm, ⟨11, _⟩ => ⟨S20000x324, .f32⟩
  | .hbm, ⟨12, _⟩ => ⟨S1x324, .f32⟩
  | .hbm, ⟨13, _⟩ => ⟨S20000x324, .f32⟩
  | .hbm, ⟨14, _⟩ => ⟨S20000x324, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S82x1024_S1024x82_1_0 : S82x1024.Transposes [1, 0] S1024x82
  bcast_S82_S1x82_1 : S82.BroadcastsInDim S1x82 (![1] : Fin 1 → Fin S1x82.rank)
  bcast_S1x82_S20000x82_0_1 : S1x82.BroadcastsInDim S20000x82 (![0, 1] : Fin 2 → Fin S20000x82.rank)
  transposes_S324x1024_S1024x324_1_0 : S324x1024.Transposes [1, 0] S1024x324
  bcast_S324_S1x324_1 : S324.BroadcastsInDim S1x324 (![1] : Fin 1 → Fin S1x324.rank)
  bcast_S1x324_S20000x324_0_1 : S1x324.BroadcastsInDim S20000x324 (![0, 1] : Fin 2 → Fin S20000x324.rank)
  dot_S20000x1024_S1024x82_S20000x82_1_0_0_1_n_n_wf : DotDims.WF S20000x1024 S1024x82 S20000x82 [1] [0] [0] [1] [] []
  dot_S20000x1024_S1024x324_S20000x324_1_0_0_1_n_n_wf : DotDims.WF S20000x1024 S1024x324 S20000x324 [1] [0] [0] [1] [] []

variable [Facts₀]

def dot_S20000x1024_S1024x82_S20000x82_1_0_0_1_n_n : DotDims S20000x1024 S1024x82 S20000x82 where
  lhsContracting := [1]
  rhsContracting := [0]
  lhsNonContracting := [0]
  rhsNonContracting := [1]
  lhsBatch := []
  rhsBatch := []
  wf := dot_S20000x1024_S1024x82_S20000x82_1_0_0_1_n_n_wf
def dot_S20000x1024_S1024x324_S20000x324_1_0_0_1_n_n : DotDims S20000x1024 S1024x324 S20000x324 where
  lhsContracting := [1]
  rhsContracting := [0]
  lhsNonContracting := [0]
  rhsNonContracting := [1]
  lhsBatch := []
  rhsBatch := []
  wf := dot_S20000x1024_S1024x324_S20000x324_1_0_0_1_n_n_wf

class Facts : Prop extends Facts₀ where

variable [Facts]
-- ==== Proof.Kernel.Cases.lean ====
/-
  The grid of the two linear heads is 10 row blocks × 4 chunks of the contracted axis, walked row block by row
  block: point `t` is chunk `t % 4` of row block `t / 4`. The body branches twice on the chunk number: on the
  first chunk of a row block it OVERWRITES both output blocks (partial product plus bias), on every later chunk
  it ADDS the partial product to what the blocks hold. Exactly one of the two branches runs at every point, so
  neither output is ever idle. This module decides those facts over the 40 points and names the staging memrefs
  the body is called with.
-/
import proofs.«138140_g32169305047750_cont_8to1_b_1656_7_alg».proof.Proof.Gen.Kernel.Frame
import proofs.«138140_g32169305047750_cont_8to1_b_1656_7_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which branch runs where -/

/-- The overwriting branch runs exactly on the first chunk of a row block. -/
theorem first_chunk_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The adding branch runs exactly on the later chunks. -/
theorem later_chunk_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the scores block at every grid coordinate: the window is never idle. -/
theorem live_scores : ∀ i : grid0.Coords, cfg0.idle 5 i = false := by decide +kernel

/-- The same for the box-deltas block. -/
theorem live_deltas : ∀ i : grid0.Coords, cfg0.idle 6 i = false := by decide +kernel

/-! ## The staging memrefs the body is called with at a point -/

abbrev ms0 (t : Fin cfg0.N) : Memref sig .tc .vmem S2000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S82x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S324x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x82 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x324 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2000x82 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2000x324 .f32 := win0_6.stage (cfg0.slots t 6)
abbrev hs6 (t : Fin cfg0.N) : (ms6 t).IsWhole := hstage0_6 ((cfg0.slots t 6).cast nbuf0_6)

/-- One staging buffer of each output window, through which a block's contents are stated. -/
abbrev viewScores : View sig .tc .vmem S2000x82 .f32 := (Memref.whole cc0_stg5_0 : Memref sig .tc .vmem S2000x82 .f32).view
abbrev viewDeltas : View sig .tc .vmem S2000x324 .f32 := (Memref.whole cc0_stg6_0 : Memref sig .tc .vmem S2000x324 .f32).view

end Cert.Kernel.Hand

end
-- ==== Proof.Kernel.RunInit.lean ====
/-
  The body at a point on the FIRST chunk of a row block: it loads the three input blocks and the two bias rows,
  and overwrites each output block with (partial product + bias); what the output buffers held before is loaded
  but never used, so they may hold anything. The adding branch does not run.
-/
import proofs.«138140_g32169305047750_cont_8to1_b_1656_7_alg».proof.Proof.Kernel.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the overwriting branch leaves in the two output buffers (scores, box deltas), with the proof that on
    whole staging memrefs — the five inputs at their contents, the outputs at anything — the body runs to a
    continuation that gets the inputs back as they were and each output buffer with its pieces written. -/
noncomputable def runInit (c : Dev nD) (i : grid0.Coords)
    (a0 : Memref sig .tc .vmem S2000x256 .f32) (h0 : a0.IsWhole) (a1 : Memref sig .tc .vmem S82x256 .f32) (h1 : a1.IsWhole)
    (a2 : Memref sig .tc .vmem S324x256 .f32) (h2 : a2.IsWhole) (a3 : Memref sig .tc .vmem S1x82 .f32) (h3 : a3.IsWhole)
    (a4 : Memref sig .tc .vmem S1x324 .f32) (h4 : a4.IsWhole) (a5 : Memref sig .tc .vmem S2000x82 .f32) (h5 : a5.IsWhole)
    (a6 : Memref sig .tc .vmem S2000x324 .f32) (h6 : a6.IsWhole)
    (hc1 : k0_cond1 i = 1#1) (hc2 : ¬ k0_cond2 i = 1#1)
    (x0 : Vec F S2000x256 .f32) (x1 : Vec F S82x256 .f32) (x2 : Vec F S324x256 .f32) (x3 : Vec F S1x82 .f32) (x4 : Vec F S1x324 .f32) :
    { L : List (View.Piece (Elt F) S2000x82 .f32) × List (View.Piece (Elt F) S2000x324 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d) ∗ (∃ d, owns (c : Thread nD τ) a6 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2)) -∗ K ⟨⟩))
          ⊢ wp frame (wpE (defs₀ (F := F)) Variants.none c none) E (cc0__heads_kernel i a0 h0 a1 h1 a2 h2 a3 h3 a4 h4 a5 h5 a6 h6) K } := by
  refine ⟨(?_, ?_), fun E K => ?run⟩
  case run =>
    simp only [cc0__heads_kernel_eq_skeleton]; unfold cc0__heads_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h0.eq_unread hf0; obtain rfl := h1.eq_unread hf1; obtain rfl := h2.eq_unread hf2
    obtain rfl := h3.eq_unread hf3; obtain rfl := h4.eq_unread hf4
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    iexists _; iexact H6

end Cert.Kernel.Hand

end
-- ==== Proof.Kernel.RunAccum.lean ====
/-
  The body at a point on a LATER chunk of a row block: it loads the three input blocks and both output blocks,
  and overwrites each output block with (what it held + partial product). The overwriting branch does not run,
  and the bias rows are not read.
-/
import proofs.«138140_g32169305047750_cont_8to1_b_1656_7_alg».proof.Proof.Kernel.RunInit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the adding branch leaves in the two output buffers, given their running contents `y5`, `y6`, with the
    proof that on whole staging memrefs — the inputs and the outputs at their contents — the body runs to a
    continuation that gets the inputs back as they were and each output buffer with its pieces written. -/
noncomputable def runAccum (c : Dev nD) (i : grid0.Coords)
    (a0 : Memref sig .tc .vmem S2000x256 .f32) (h0 : a0.IsWhole) (a1 : Memref sig .tc .vmem S82x256 .f32) (h1 : a1.IsWhole)
    (a2 : Memref sig .tc .vmem S324x256 .f32) (h2 : a2.IsWhole) (a3 : Memref sig .tc .vmem S1x82 .f32) (h3 : a3.IsWhole)
    (a4 : Memref sig .tc .vmem S1x324 .f32) (h4 : a4.IsWhole) (a5 : Memref sig .tc .vmem S2000x82 .f32) (h5 : a5.IsWhole)
    (a6 : Memref sig .tc .vmem S2000x324 .f32) (h6 : a6.IsWhole)
    (hc1 : ¬ k0_cond1 i = 1#1) (hc2 : k0_cond2 i = 1#1)
    (x0 : Vec F S2000x256 .f32) (x1 : Vec F S82x256 .f32) (x2 : Vec F S324x256 .f32) (x3 : Vec F S1x82 .f32) (x4 : Vec F S1x324 .f32)
    (y5 : Vec F S2000x82 .f32) (y6 : Vec F S2000x324 .f32) :
    { L : List (View.Piece (Elt F) S2000x82 .f32) × List (View.Piece (Elt F) S2000x324 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare y5 ∗ owns (c : Thread nD τ) a6 fullShare y6
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2)) -∗ K ⟨⟩))
          ⊢ wp frame (wpE (defs₀ (F := F)) Variants.none c none) E (cc0__heads_kernel i a0 h0 a1 h1 a2 h2 a3 h3 a4 h4 a5 h5 a6 h6) K } := by
  refine ⟨(?_, ?_), fun E K => ?run⟩
  case run =>
    simp only [cc0__heads_kernel_eq_skeleton]; unfold cc0__heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h0.eq_unread hf0; obtain rfl := h1.eq_unread hf1; obtain rfl := h2.eq_unread hf2
    obtain rfl := h3.eq_unread hf3; obtain rfl := h4.eq_unread hf4
    obtain rfl := h5.eq_unread hf5; obtain rfl := h6.eq_unread hf6
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    iexists _; iexact H6

end Cert.Kernel.Hand

end
-- ==== Proof.Kernel.Body.lean ====
/-
  The frame of the two linear heads, on top of the generated launch lemmas. What the two output blocks hold
  after each grid point is defined by recursion on the point: on the first chunk of a row block, what the
  overwriting branch stores; on a later chunk, what the adding branch stores over what the point before left
  (the blocks are written back to their arrays only after the last chunk of a row block, so between the chunks
  of one row block the staging buffers keep their contents). With that as the proof data the body's triple holds
  at every point, and the launch theorem gives the run: the program terminates, faults nowhere, and leaves its
  five argument arrays unchanged.
-/
import proofs.«138140_g32169305047750_cont_8to1_b_1656_7_alg».proof.Proof.Kernel.RunAccum

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each branch's stores cover the block they write -/

theorem coverInitScores (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : k0_cond1 i = 1#1) (hc2 : ¬ k0_cond2 i = 1#1) (x0 : Vec F S2000x256 .f32) (x1 : Vec F S82x256 .f32) (x2 : Vec F S324x256 .f32) (x3 : Vec F S1x82 .f32) (x4 : Vec F S1x324 .f32) (y : S2000x82.Idx) :
    ∃ pc ∈ (runInit c i a0 h0 a1 h1 a2 h2 a3 h3 a4 h4 a5 h5 a6 h6 hc1 hc2 x0 x1 x2 x3 x4).1.1, y ∈ pc.1.set :=
  View.cover_of_tiledL (runInit c i a0 h0 a1 h1 a2 h2 a3 h3 a4 h4 a5 h5 a6 h6 hc1 hc2 x0 x1 x2 x3 x4).1.1 S2000x82.size (by sl_kernel_rfl) y

theorem coverInitDeltas (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : k0_cond1 i = 1#1) (hc2 : ¬ k0_cond2 i = 1#1) (x0 : Vec F S2000x256 .f32) (x1 : Vec F S82x256 .f32) (x2 : Vec F S324x256 .f32) (x3 : Vec F S1x82 .f32) (x4 : Vec F S1x324 .f32) (y : S2000x324.Idx) :
    ∃ pc ∈ (runInit c i a0 h0 a1 h1 a2 h2 a3 h3 a4 h4 a5 h5 a6 h6 hc1 hc2 x0 x1 x2 x3 x4).1.2, y ∈ pc.1.set :=
  View.cover_of_tiledL (runInit c i a0 h0 a1 h1 a2 h2 a3 h3 a4 h4 a5 h5 a6 h6 hc1 hc2 x0 x1 x2 x3 x4).1.2 S2000x324.size (by sl_kernel_rfl) y

theorem coverAccumScores (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : ¬ k0_cond1 i = 1#1) (hc2 : k0_cond2 i = 1#1) (x0 : Vec F S2000x256 .f32) (x1 : Vec F S82x256 .f32) (x2 : Vec F S324x256 .f32) (x3 : Vec F S1x82 .f32) (x4 : Vec F S1x324 .f32) (y5 : Vec F S2000x82 .f32) (y6 : Vec F S2000x324 .f32) (y : S2000x82.Idx) :
    ∃ pc ∈ (runAccum c i a0 h0 a1 h1 a2 h2 a3 h3 a4 h4 a5 h5 a6 h6 hc1 hc2 x0 x1 x2 x3 x4 y5 y6).1.1, y ∈ pc.1.set :=
  View.cover_of_tiledL (runAccum c i a0 h0 a1 h1 a2 h2 a3 h3 a4 h4 a5 h5 a6 h6 hc1 hc2 x0 x1 x2 x3 x4 y5 y6).1.1 S2000x82.size (by sl_kernel_rfl) y

theorem coverAccumDeltas (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : ¬ k0_cond1 i = 1#1) (hc2 : k0_cond2 i = 1#1) (x0 : Vec F S2000x256 .f32) (x1 : Vec F S82x256 .f32) (x2 : Vec F S324x256 .f32) (x3 : Vec F S1x82 .f32) (x4 : Vec F S1x324 .f32) (y5 : Vec F S2000x82 .f32) (y6 : Vec F S2000x324 .f32) (y : S2000x324.Idx) :
    ∃ pc ∈ (runAccum c i a0 h0 a1 h1 a2 h2 a3 h3 a4 h4 a5 h5 a6 h6 hc1 hc2 x0 x1 x2 x3 x4 y5 y6).1.2, y ∈ pc.1.set :=
  View.cover_of_tiledL (runAccum c i a0 h0 a1 h1 a2 h2 a3 h3 a4 h4 a5 h5 a6 h6 hc1 hc2 x0 x1 x2 x3 x4 y5 y6).1.2 S2000x324.size (by sl_kernel_rfl) y

/-! ## The body's run at a grid point, on the point's staging memrefs and input blocks -/

/-- The overwriting branch's run at a point on the first chunk of a row block. -/
abbrev initRun (c : Dev nD) (t : Fin cfg0.N) (ht : t.val % 4 = 0) :=
  runInit (F := F) c (grid0.coords t) (ms0 t) (hs0 t) (ms1 t) (hs1 t) (ms2 t) (hs2 t) (ms3 t) (hs3 t) (ms4 t) (hs4 t) (ms5 t) (hs5 t) (ms6 t) (hs6 t)
    ((first_chunk_iff t).mpr ht) (fun h => (later_chunk_iff t).mp h ht) (iblk m c 0 t) (iblk m c 1 t) (iblk m c 2 t) (iblk m c 3 t) (iblk m c 4 t)

/-- The adding branch's run at a point on a later chunk, over the blocks' running contents `y`. -/
abbrev accumRun (c : Dev nD) (t : Fin cfg0.N) (ht : ¬ t.val % 4 = 0) (y : Vec F S2000x82 .f32 × Vec F S2000x324 .f32) :=
  runAccum (F := F) c (grid0.coords t) (ms0 t) (hs0 t) (ms1 t) (hs1 t) (ms2 t) (hs2 t) (ms3 t) (hs3 t) (ms4 t) (hs4 t) (ms5 t) (hs5 t) (ms6 t) (hs6 t)
    (fun h => ht ((first_chunk_iff t).mp h)) ((later_chunk_iff t).mpr ht) (iblk m c 0 t) (iblk m c 1 t) (iblk m c 2 t) (iblk m c 3 t) (iblk m c 4 t) y.1 y.2

/-- What the overwriting branch leaves in the two output blocks (scores, box deltas): its stores read back. -/
def initOut (c : Dev nD) (t : Fin cfg0.N) (ht : t.val % 4 = 0) : Vec F S2000x82 .f32 × Vec F S2000x324 .f32 :=
  (viewScores.read (Elt F) (viewScores.writes (Elt F) viewScores.junk (initRun m c t ht).1.1),
   viewDeltas.read (Elt F) (viewDeltas.writes (Elt F) viewDeltas.junk (initRun m c t ht).1.2))

/-- What the adding branch leaves in the two output blocks, over their running contents `y`. -/
def accumOut (c : Dev nD) (t : Fin cfg0.N) (ht : ¬ t.val % 4 = 0) (y : Vec F S2000x82 .f32 × Vec F S2000x324 .f32) :
    Vec F S2000x82 .f32 × Vec F S2000x324 .f32 :=
  (viewScores.read (Elt F) (viewScores.writes (Elt F) viewScores.junk (accumRun m c t ht y).1.1),
   viewDeltas.read (Elt F) (viewDeltas.writes (Elt F) viewDeltas.junk (accumRun m c t ht y).1.2))

/-! ## The accumulation, point by point -/

/-- What the two output blocks hold after the body at position `n` of the grid: on the first chunk of a row block
    the overwriting branch's stores, on a later chunk the adding branch's over what position `n - 1` left. -/
def outsAt (c : Dev nD) : (n : ℕ) → n < cfg0.N → Vec F S2000x82 .f32 × Vec F S2000x324 .f32
  | 0, hn => initOut m c ⟨0, hn⟩ (Nat.zero_mod _)
  | n + 1, hn =>
    if h : (n + 1) % 4 = 0 then initOut m c ⟨n + 1, hn⟩ h
    else accumOut m c ⟨n + 1, hn⟩ h (outsAt c n (Nat.lt_of_succ_lt hn))

theorem outsAt_init (c : Dev nD) (t : Fin cfg0.N) (ht : t.val % 4 = 0) :
    outsAt m c t.val t.isLt = initOut m c t ht := by
  obtain ⟨n, hn⟩ := t
  cases n with
  | zero => exact rfl
  | succ n => exact (dif_pos ht).trans rfl

theorem outsAt_accum (c : Dev nD) (t : Fin cfg0.N) (ht : ¬ t.val % 4 = 0) :
    outsAt m c t.val t.isLt = accumOut m c t ht (outsAt m c (t.val - 1) (Nat.lt_of_le_of_lt (Nat.sub_le _ _) t.isLt)) := by
  obtain ⟨n, hn⟩ := t
  cases n with
  | zero => exact (by exfalso; (try dsimp only at ht); exact absurd (Nat.zero_mod _) ht)
  | succ n => exact (dif_neg ht).trans rfl

/-! ## The pipeline's proof data -/

/-- The proof data of the one pipeline on core `c`: the arrays as the region finds them; after the body at point
    `t` each input's buffer at its block and the two outputs' at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]
theorem after_6 (c : Dev nD) (t : Fin cfg0.N) : (dats m 0 c).after 6 t = (outsAt m c t.val t.isLt).2 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- On a later chunk the scores buffer holds what the body left at the point before: the point is not the first,
    the block was not written back in between (that happens only after a row block's last chunk), and the window
    is never idle. -/
theorem before_5_accum (c : Dev nD) (t : Fin cfg0.N) (ht : ¬ t.val % 4 = 0) (d) :
    (dats m 0 c).before 5 t d = (outsAt m c (t.val - 1) (Nat.lt_of_le_of_lt (Nat.sub_le _ _) t.isLt)).1 := by
  have hN : t.val < 40 := lt_of_lt_of_eq t.isLt (show cfg0.N = 40 from N_0)
  rw [Dat.before_out_kept _ 5 rfl t (by omega) (Bool.eq_false_iff.mpr fun h => by have := (flush0_5 _).mp h; dsimp only at this; omega)
    live_scores (fun _ _ => rfl)]
  dsimp only [dats]

/-- The same for the box-deltas buffer. -/
theorem before_6_accum (c : Dev nD) (t : Fin cfg0.N) (ht : ¬ t.val % 4 = 0) (d) :
    (dats m 0 c).before 6 t d = (outsAt m c (t.val - 1) (Nat.lt_of_le_of_lt (Nat.sub_le _ _) t.isLt)).2 := by
  have hN : t.val < 40 := lt_of_lt_of_eq t.isLt (show cfg0.N = 40 from N_0)
  rw [Dat.before_out_kept _ 6 rfl t (by omega) (Bool.eq_false_iff.mpr fun h => by have := (flush0_6 _).mp h; dsimp only at this; omega)
    live_deltas (fun _ _ => rfl)]
  dsimp only [dats]

end Cert.Kernel.Hand

end
-- ==== Proof.Kernel.SoundBody.lean ====
/-
  The body's triple at every grid point. At a point the five input buffers hold their blocks; on the first chunk
  of a row block the output buffers may hold anything and the overwriting branch runs; on a later chunk they hold
  what the point before left and the adding branch runs. Either way the stores cover the two output blocks whole,
  so what the buffers hold afterwards is what the accumulation names.
-/
import proofs.«138140_g32169305047750_cont_8to1_b_1656_7_alg».proof.Proof.Kernel.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns: each buffer at what the proof data says it holds after the body. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point, by cases on the chunk number. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 4 = 0
  · rw [outsAt_init m c t h0]
    unfold initOut
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((initRun m c t h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverInitScores c _ _ _ _ _ _ _ _ _ _ _ _ _ _ _ _ _ _ _ _ _ _)
    unfold owns; iexists _; isplitr
    swap; · iexact H6
    ipureintro; exact View.read_writes_of_cover _ _ _ _ _ (coverInitDeltas c _ _ _ _ _ _ _ _ _ _ _ _ _ _ _ _ _ _ _ _ _ _)
  · rw [outsAt_accum m c t h0]
    simp only [before_5_accum m c t h0, before_6_accum m c t h0]
    unfold accumOut
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((accumRun m c t h0 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverAccumScores c _ _ _ _ _ _ _ _ _ _ _ _ _ _ _ _ _ _ _ _ _ _ _ _)
    unfold owns; iexists _; isplitr
    swap; · iexact H6
    ipureintro; exact View.read_writes_of_cover _ _ _ _ _ (coverAccumDeltas c _ _ _ _ _ _ _ _ _ _ _ _ _ _ _ _ _ _ _ _ _ _ _ _)

end Cert.Kernel.Hand

end
-- ==== Proof.Kernel.Obligation.lean ====
/-
  The launch and the frame of the two linear heads: the body's triple at every point is the library's body
  obligation (neither output is idle anywhere), the launch theorem runs the pipeline, and the program's five
  argument arrays end unchanged.
-/
import proofs.«138140_g32169305047750_cont_8to1_b_1656_7_alg».proof.Proof.Kernel.SoundBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: neither output is idle anywhere, so each buffer is handed back
    at what the proof data names. -/
theorem body_obligation (c : Dev nD) : BodyObligation (dats (F := F) m 0 c) (defs₀ (F := F)) Variants.none () Set.univ := fun t => by
  rw [bigSep_W0, bigSep_W0]
  rw [live_scores (cfg0.grid.coords t)]
  try rw [live_deltas (cfg0.grid.coords t)]
  exact sound_body m c t

/-! ## The run and the frame -/

set_option backward.isDefEq.respectTransparency.types false in
/-- Every weakly fair execution of @main on the TensorCores terminates, and every final state has each windowed array
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KernelIdeal.Cases.lean ====
/-
  The grid of the two linear heads is 10 row blocks × 4 chunks of the contracted axis, walked row block by row
  block: point `t` is chunk `t % 4` of row block `t / 4`. The body branches twice on the chunk number: on the
  first chunk of a row block it OVERWRITES both output blocks (partial product plus bias), on every later chunk
  it ADDS the partial product to what the blocks hold. Exactly one of the two branches runs at every point, so
  neither output is ever idle. This module decides those facts over the 40 points and names the staging memrefs
  the body is called with.
-/
import proofs.«138140_g32169305047750_cont_8to1_b_1656_7_alg».proof.Proof.Gen.KernelIdeal.Frame
import proofs.«138140_g32169305047750_cont_8to1_b_1656_7_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which branch runs where -/

/-- The overwriting branch runs exactly on the first chunk of a row block. -/
theorem first_chunk_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The adding branch runs exactly on the later chunks. -/
theorem later_chunk_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the scores block at every grid coordinate: the window is never idle. -/
theorem live_scores : ∀ i : grid0.Coords, cfg0.idle 5 i = false := by decide +kernel

/-- The same for the box-deltas block. -/
theorem live_deltas : ∀ i : grid0.Coords, cfg0.idle 6 i = false := by decide +kernel

/-! ## The staging memrefs the body is called with at a point -/

abbrev ms0 (t : Fin cfg0.N) : Memref sig .tc .vmem S2000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S82x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S324x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x82 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x324 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2000x82 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2000x324 .f32 := win0_6.stage (cfg0.slots t 6)
abbrev hs6 (t : Fin cfg0.N) : (ms6 t).IsWhole := hstage0_6 ((cfg0.slots t 6).cast nbuf0_6)

/-- One staging buffer of each output window, through which a block's contents are stated. -/
abbrev viewScores : View sig .tc .vmem S2000x82 .f32 := (Memref.whole cc0_stg5_0 : Memref sig .tc .vmem S2000x82 .f32).view
abbrev viewDeltas : View sig .tc .vmem S2000x324 .f32 := (Memref.whole cc0_stg6_0 : Memref sig .tc .vmem S2000x324 .f32).view

end Cert.KernelIdeal.Hand

end
-- ==== Proof.KernelIdeal.RunInit.lean ====
/-
  The body at a point on the FIRST chunk of a row block: it loads the three input blocks and the two bias rows,
  and overwrites each output block with (partial product + bias); what the output buffers held before is loaded
  but never used, so they may hold anything. The adding branch does not run.
-/
import proofs.«138140_g32169305047750_cont_8to1_b_1656_7_alg».proof.Proof.KernelIdeal.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the overwriting branch leaves in the two output buffers (scores, box deltas), with the proof that on
    whole staging memrefs — the five inputs at their contents, the outputs at anything — the body runs to a
    continuation that gets the inputs back as they were and each output buffer with its pieces written. -/
noncomputable def runInit (c : Dev nD) (i : grid0.Coords)
    (a0 : Memref sig .tc .vmem S2000x256 .f32) (h0 : a0.IsWhole) (a1 : Memref sig .tc .vmem S82x256 .f32) (h1 : a1.IsWhole)
    (a2 : Memref sig .tc .vmem S324x256 .f32) (h2 : a2.IsWhole) (a3 : Memref sig .tc .vmem S1x82 .f32) (h3 : a3.IsWhole)
    (a4 : Memref sig .tc .vmem S1x324 .f32) (h4 : a4.IsWhole) (a5 : Memref sig .tc .vmem S2000x82 .f32) (h5 : a5.IsWhole)
    (a6 : Memref sig .tc .vmem S2000x324 .f32) (h6 : a6.IsWhole)
    (hc1 : k0_cond1 i = 1#1) (hc2 : ¬ k0_cond2 i = 1#1)
    (x0 : Vec F S2000x256 .f32) (x1 : Vec F S82x256 .f32) (x2 : Vec F S324x256 .f32) (x3 : Vec F S1x82 .f32) (x4 : Vec F S1x324 .f32) :
    { L : List (View.Piece (Elt F) S2000x82 .f32) × List (View.Piece (Elt F) S2000x324 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d) ∗ (∃ d, owns (c : Thread nD τ) a6 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2)) -∗ K ⟨⟩))
          ⊢ wp frame (wpE (defs₀ (F := F)) Variants.none c none) E (cc0__heads_kernel i a0 h0 a1 h1 a2 h2 a3 h3 a4 h4 a5 h5 a6 h6) K } := by
  refine ⟨(?_, ?_), fun E K => ?run⟩
  case run =>
    simp only [cc0__heads_kernel_eq_skeleton]; unfold cc0__heads_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h0.eq_unread hf0; obtain rfl := h1.eq_unread hf1; obtain rfl := h2.eq_unread hf2
    obtain rfl := h3.eq_unread hf3; obtain rfl := h4.eq_unread hf4
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    iexists _; iexact H6

end Cert.KernelIdeal.Hand

end
-- ==== Proof.KernelIdeal.RunAccum.lean ====
/-
  The body at a point on a LATER chunk of a row block: it loads the three input blocks and both output blocks,
  and overwrites each output block with (what it held + partial product). The overwriting branch does not run,
  and the bias rows are not read.
-/
import proofs.«138140_g32169305047750_cont_8to1_b_1656_7_alg».proof.Proof.KernelIdeal.RunInit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the adding branch leaves in the two output buffers, given their running contents `y5`, `y6`, with the
    proof that on whole staging memrefs — the inputs and the outputs at their contents — the body runs to a
    continuation that gets the inputs back as they were and each output buffer with its pieces written. -/
noncomputable def runAccum (c : Dev nD) (i : grid0.Coords)
    (a0 : Memref sig .tc .vmem S2000x256 .f32) (h0 : a0.IsWhole) (a1 : Memref sig .tc .vmem S82x256 .f32) (h1 : a1.IsWhole)
    (a2 : Memref sig .tc .vmem S324x256 .f32) (h2 : a2.IsWhole) (a3 : Memref sig .tc .vmem S1x82 .f32) (h3 : a3.IsWhole)
    (a4 : Memref sig .tc .vmem S1x324 .f32) (h4 : a4.IsWhole) (a5 : Memref sig .tc .vmem S2000x82 .f32) (h5 : a5.IsWhole)
    (a6 : Memref sig .tc .vmem S2000x324 .f32) (h6 : a6.IsWhole)
    (hc1 : ¬ k0_cond1 i = 1#1) (hc2 : k0_cond2 i = 1#1)
    (x0 : Vec F S2000x256 .f32) (x1 : Vec F S82x256 .f32) (x2 : Vec F S324x256 .f32) (x3 : Vec F S1x82 .f32) (x4 : Vec F S1x324 .f32)
    (y5 : Vec F S2000x82 .f32) (y6 : Vec F S2000x324 .f32) :
    { L : List (View.Piece (Elt F) S2000x82 .f32) × List (View.Piece (Elt F) S2000x324 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare y5 ∗ owns (c : Thread nD τ) a6 fullShare y6
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2)) -∗ K ⟨⟩))
          ⊢ wp frame (wpE (defs₀ (F := F)) Variants.none c none) E (cc0__heads_kernel i a0 h0 a1 h1 a2 h2 a3 h3 a4 h4 a5 h5 a6 h6) K } := by
  refine ⟨(?_, ?_), fun E K => ?run⟩
  case run =>
    simp only [cc0__heads_kernel_eq_skeleton]; unfold cc0__heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h0.eq_unread hf0; obtain rfl := h1.eq_unread hf1; obtain rfl := h2.eq_unread hf2
    obtain rfl := h3.eq_unread hf3; obtain rfl := h4.eq_unread hf4
    obtain rfl := h5.eq_unread hf5; obtain rfl := h6.eq_unread hf6
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    iexists _; iexact H6

end Cert.KernelIdeal.Hand

end
-- ==== Proof.KernelIdeal.Body.lean ====
/-
  The frame of the two linear heads, on top of the generated launch lemmas. What the two output blocks hold
  after each grid point is defined by recursion on the point: on the first chunk of a row block, what the
  overwriting branch stores; on a later chunk, what the adding branch stores over what the point before left
  (the blocks are written back to their arrays only after the last chunk of a row block, so between the chunks
  of one row block the staging buffers keep their contents). With that as the proof data the body's triple holds
  at every point, and the launch theorem gives the run: the program terminates, faults nowhere, and leaves its
  five argument arrays unchanged.
-/
import proofs.«138140_g32169305047750_cont_8to1_b_1656_7_alg».proof.Proof.KernelIdeal.RunAccum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each branch's stores cover the block they write -/

theorem coverInitScores (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : k0_cond1 i = 1#1) (hc2 : ¬ k0_cond2 i = 1#1) (x0 : Vec F S2000x256 .f32) (x1 : Vec F S82x256 .f32) (x2 : Vec F S324x256 .f32) (x3 : Vec F S1x82 .f32) (x4 : Vec F S1x324 .f32) (y : S2000x82.Idx) :
    ∃ pc ∈ (runInit c i a0 h0 a1 h1 a2 h2 a3 h3 a4 h4 a5 h5 a6 h6 hc1 hc2 x0 x1 x2 x3 x4).1.1, y ∈ pc.1.set :=
  View.cover_of_tiledL (runInit c i a0 h0 a1 h1 a2 h2 a3 h3 a4 h4 a5 h5 a6 h6 hc1 hc2 x0 x1 x2 x3 x4).1.1 S2000x82.size (by sl_kernel_rfl) y

theorem coverInitDeltas (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : k0_cond1 i = 1#1) (hc2 : ¬ k0_cond2 i = 1#1) (x0 : Vec F S2000x256 .f32) (x1 : Vec F S82x256 .f32) (x2 : Vec F S324x256 .f32) (x3 : Vec F S1x82 .f32) (x4 : Vec F S1x324 .f32) (y : S2000x324.Idx) :
    ∃ pc ∈ (runInit c i a0 h0 a1 h1 a2 h2 a3 h3 a4 h4 a5 h5 a6 h6 hc1 hc2 x0 x1 x2 x3 x4).1.2, y ∈ pc.1.set :=
  View.cover_of_tiledL (runInit c i a0 h0 a1 h1 a2 h2 a3 h3 a4 h4 a5 h5 a6 h6 hc1 hc2 x0 x1 x2 x3 x4).1.2 S2000x324.size (by sl_kernel_rfl) y

theorem coverAccumScores (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : ¬ k0_cond1 i = 1#1) (hc2 : k0_cond2 i = 1#1) (x0 : Vec F S2000x256 .f32) (x1 : Vec F S82x256 .f32) (x2 : Vec F S324x256 .f32) (x3 : Vec F S1x82 .f32) (x4 : Vec F S1x324 .f32) (y5 : Vec F S2000x82 .f32) (y6 : Vec F S2000x324 .f32) (y : S2000x82.Idx) :
    ∃ pc ∈ (runAccum c i a0 h0 a1 h1 a2 h2 a3 h3 a4 h4 a5 h5 a6 h6 hc1 hc2 x0 x1 x2 x3 x4 y5 y6).1.1, y ∈ pc.1.set :=
  View.cover_of_tiledL (runAccum c i a0 h0 a1 h1 a2 h2 a3 h3 a4 h4 a5 h5 a6 h6 hc1 hc2 x0 x1 x2 x3 x4 y5 y6).1.1 S2000x82.size (by sl_kernel_rfl) y

theorem coverAccumDeltas (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : ¬ k0_cond1 i = 1#1) (hc2 : k0_cond2 i = 1#1) (x0 : Vec F S2000x256 .f32) (x1 : Vec F S82x256 .f32) (x2 : Vec F S324x256 .f32) (x3 : Vec F S1x82 .f32) (x4 : Vec F S1x324 .f32) (y5 : Vec F S2000x82 .f32) (y6 : Vec F S2000x324 .f32) (y : S2000x324.Idx) :
    ∃ pc ∈ (runAccum c i a0 h0 a1 h1 a2 h2 a3 h3 a4 h4 a5 h5 a6 h6 hc1 hc2 x0 x1 x2 x3 x4 y5 y6).1.2, y ∈ pc.1.set :=
  View.cover_of_tiledL (runAccum c i a0 h0 a1 h1 a2 h2 a3 h3 a4 h4 a5 h5 a6 h6 hc1 hc2 x0 x1 x2 x3 x4 y5 y6).1.2 S2000x324.size (by sl_kernel_rfl) y

/-! ## The body's run at a grid point, on the point's staging memrefs and input blocks -/

/-- The overwriting branch's run at a point on the first chunk of a row block. -/
abbrev initRun (c : Dev nD) (t : Fin cfg0.N) (ht : t.val % 4 = 0) :=
  runInit (F := F) c (grid0.coords t) (ms0 t) (hs0 t) (ms1 t) (hs1 t) (ms2 t) (hs2 t) (ms3 t) (hs3 t) (ms4 t) (hs4 t) (ms5 t) (hs5 t) (ms6 t) (hs6 t)
    ((first_chunk_iff t).mpr ht) (fun h => (later_chunk_iff t).mp h ht) (iblk m c 0 t) (iblk m c 1 t) (iblk m c 2 t) (iblk m c 3 t) (iblk m c 4 t)

/-- The adding branch's run at a point on a later chunk, over the blocks' running contents `y`. -/
abbrev accumRun (c : Dev nD) (t : Fin cfg0.N) (ht : ¬ t.val % 4 = 0) (y : Vec F S2000x82 .f32 × Vec F S2000x324 .f32) :=
  runAccum (F := F) c (grid0.coords t) (ms0 t) (hs0 t) (ms1 t) (hs1 t) (ms2 t) (hs2 t) (ms3 t) (hs3 t) (ms4 t) (hs4 t) (ms5 t) (hs5 t) (ms6 t) (hs6 t)
    (fun h => ht ((first_chunk_iff t).mp h)) ((later_chunk_iff t).mpr ht) (iblk m c 0 t) (iblk m c 1 t) (iblk m c 2 t) (iblk m c 3 t) (iblk m c 4 t) y.1 y.2

/-- What the overwriting branch leaves in the two output blocks (scores, box deltas): its stores read back. -/
def initOut (c : Dev nD) (t : Fin cfg0.N) (ht : t.val % 4 = 0) : Vec F S2000x82 .f32 × Vec F S2000x324 .f32 :=
  (viewScores.read (Elt F) (viewScores.writes (Elt F) viewScores.junk (initRun m c t ht).1.1),
   viewDeltas.read (Elt F) (viewDeltas.writes (Elt F) viewDeltas.junk (initRun m c t ht).1.2))

/-- What the adding branch leaves in the two output blocks, over their running contents `y`. -/
def accumOut (c : Dev nD) (t : Fin cfg0.N) (ht : ¬ t.val % 4 = 0) (y : Vec F S2000x82 .f32 × Vec F S2000x324 .f32) :
    Vec F S2000x82 .f32 × Vec F S2000x324 .f32 :=
  (viewScores.read (Elt F) (viewScores.writes (Elt F) viewScores.junk (accumRun m c t ht y).1.1),
   viewDeltas.read (Elt F) (viewDeltas.writes (Elt F) viewDeltas.junk (accumRun m c t ht y).1.2))

/-! ## The accumulation, point by point -/

/-- What the two output blocks hold after the body at position `n` of the grid: on the first chunk of a row block
    the overwriting branch's stores, on a later chunk the adding branch's over what position `n - 1` left. -/
def outsAt (c : Dev nD) : (n : ℕ) → n < cfg0.N → Vec F S2000x82 .f32 × Vec F S2000x324 .f32
  | 0, hn => initOut m c ⟨0, hn⟩ (Nat.zero_mod _)
  | n + 1, hn =>
    if h : (n + 1) % 4 = 0 then initOut m c ⟨n + 1, hn⟩ h
    else accumOut m c ⟨n + 1, hn⟩ h (outsAt c n (Nat.lt_of_succ_lt hn))

theorem outsAt_init (c : Dev nD) (t : Fin cfg0.N) (ht : t.val % 4 = 0) :
    outsAt m c t.val t.isLt = initOut m c t ht := by
  obtain ⟨n, hn⟩ := t
  cases n with
  | zero => exact rfl
  | succ n => exact (dif_pos ht).trans rfl

theorem outsAt_accum (c : Dev nD) (t : Fin cfg0.N) (ht : ¬ t.val % 4 = 0) :
    outsAt m c t.val t.isLt = accumOut m c t ht (outsAt m c (t.val - 1) (Nat.lt_of_le_of_lt (Nat.sub_le _ _) t.isLt)) := by
  obtain ⟨n, hn⟩ := t
  cases n with
  | zero => exact (by exfalso; (try dsimp only at ht); exact absurd (Nat.zero_mod _) ht)
  | succ n => exact (dif_neg ht).trans rfl

/-! ## The pipeline's proof data -/

/-- The proof data of the one pipeline on core `c`: the arrays as the region finds them; after the body at point
    `t` each input's buffer at its block and the two outputs' at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]
theorem after_6 (c : Dev nD) (t : Fin cfg0.N) : (dats m 0 c).after 6 t = (outsAt m c t.val t.isLt).2 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- On a later chunk the scores buffer holds what the body left at the point before: the point is not the first,
    the block was not written back in between (that happens only after a row block's last chunk), and the window
    is never idle. -/
theorem before_5_accum (c : Dev nD) (t : Fin cfg0.N) (ht : ¬ t.val % 4 = 0) (d) :
    (dats m 0 c).before 5 t d = (outsAt m c (t.val - 1) (Nat.lt_of_le_of_lt (Nat.sub_le _ _) t.isLt)).1 := by
  have hN : t.val < 40 := lt_of_lt_of_eq t.isLt (show cfg0.N = 40 from N_0)
  rw [Dat.before_out_kept _ 5 rfl t (by omega) (Bool.eq_false_iff.mpr fun h => by have := (flush0_5 _).mp h; dsimp only at this; omega)
    live_scores (fun _ _ => rfl)]
  dsimp only [dats]

/-- The same for the box-deltas buffer. -/
theorem before_6_accum (c : Dev nD) (t : Fin cfg0.N) (ht : ¬ t.val % 4 = 0) (d) :
    (dats m 0 c).before 6 t d = (outsAt m c (t.val - 1) (Nat.lt_of_le_of_lt (Nat.sub_le _ _) t.isLt)).2 := by
  have hN : t.val < 40 := lt_of_lt_of_eq t.isLt (show cfg0.N = 40 from N_0)
  rw [Dat.before_out_kept _ 6 rfl t (by omega) (Bool.eq_false_iff.mpr fun h => by have := (flush0_6 _).mp h; dsimp only at this; omega)
    live_deltas (fun _ _ => rfl)]
  dsimp only [dats]

end Cert.KernelIdeal.Hand

end
-- ==== Proof.KernelIdeal.SoundBody.lean ====
/-
  The body's triple at every grid point. At a point the five input buffers hold their blocks; on the first chunk
  of a row block the output buffers may hold anything and the overwriting branch runs; on a later chunk they hold
  what the point before left and the adding branch runs. Either way the stores cover the two output blocks whole,
  so what the buffers hold afterwards is what the accumulation names.
-/
import proofs.«138140_g32169305047750_cont_8to1_b_1656_7_alg».proof.Proof.KernelIdeal.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns: each buffer at what the proof data says it holds after the body. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point, by cases on the chunk number. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 4 = 0
  · rw [outsAt_init m c t h0]
    unfold initOut
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((initRun m c t h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverInitScores c _ _ _ _ _ _ _ _ _ _ _ _ _ _ _ _ _ _ _ _ _ _)
    unfold owns; iexists _; isplitr
    swap; · iexact H6
    ipureintro; exact View.read_writes_of_cover _ _ _ _ _ (coverInitDeltas c _ _ _ _ _ _ _ _ _ _ _ _ _ _ _ _ _ _ _ _ _ _)
  · rw [outsAt_accum m c t h0]
    simp only [before_5_accum m c t h0, before_6_accum m c t h0]
    unfold accumOut
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((accumRun m c t h0 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverAccumScores c _ _ _ _ _ _ _ _ _ _ _ _ _ _ _ _ _ _ _ _ _ _ _ _)
    unfold owns; iexists _; isplitr
    swap; · iexact H6
    ipureintro; exact View.read_writes_of_cover _ _ _ _ _ (coverAccumDeltas c _ _ _ _ _ _ _ _ _ _ _ _ _ _ _ _ _ _ _ _ _ _ _ _)

end Cert.KernelIdeal.Hand

end
-- ==== Proof.KernelIdeal.Obligation.lean ====
/-
  The launch and the frame of the two linear heads: the body's triple at every point is the library's body
  obligation (neither output is idle anywhere), the launch theorem runs the pipeline, and the program's five
  argument arrays end unchanged.
-/
import proofs.«138140_g32169305047750_cont_8to1_b_1656_7_alg».proof.Proof.KernelIdeal.SoundBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: neither output is idle anywhere, so each buffer is handed back
    at what the proof data names. -/
theorem body_obligation (c : Dev nD) : BodyObligation (dats (F := F) m 0 c) (defs₀ (F := F)) Variants.none () Set.univ := fun t => by
  rw [bigSep_W0, bigSep_W0]
  rw [live_scores (cfg0.grid.coords t)]
  try rw [live_deltas (cfg0.grid.coords t)]
  exact sound_body m c t

/-! ## The run and the frame -/

set_option backward.isDefEq.respectTransparency.types false in
/-- Every weakly fair execution of @main on the TensorCores terminates, and every final state has each windowed array
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Value.Pieces.lean ====
/-
  What each branch leaves in the two output blocks, as values. Each branch writes each output block with ONE store
  that covers it whole, so the block afterwards is that store's value: on the first chunk of a row block the
  partial product plus the bias row, on a later chunk the block's running contents plus the partial product — each
  a pure function of the blocks the body loaded, and every load reads a whole staging buffer.
-/
import proofs.«138140_g32169305047750_cont_8to1_b_1656_7_alg».proof.Proof.KernelIdeal.Obligation
import Idealize.ShloMosaic.Lib.ValueIdx
import Idealize.ShloMosaic.Lib.Pipeline.Value
import Idealize.ShloMosaic.Lib.Tactic

set_option maxRecDepth 16384

noncomputable section

namespace Cert.KernelIdeal.HeadValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

open Idealize.ShloMosaic.Tactic

variable {F : FTy → Type} [FloatOps F]
variable (m : (ℓ : Loc nD τ sig) → Buf (Elt F) ℓ)

theorem hz : (![0, 0] : Fin 2 → Nat) = fun _ => 0 := funext fun a => by fin_cases a <;> rfl

theorem init_scores_value (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : k0_cond1 i = 1#1) (hc2 : ¬ k0_cond2 i = 1#1) (x0 : Vec F S2000x256 .f32) (x1 : Vec F S82x256 .f32) (x2 : Vec F S324x256 .f32) (x3 : Vec F S1x82 .f32) (x4 : Vec F S1x324 .f32) :
    viewScores.read (Elt F) (viewScores.writes (Elt F) viewScores.junk (runInit c i a0 h0 a1 h1 a2 h2 a3 h3 a4 h4 a5 h5 a6 h6 hc1 hc2 x0 x1 x2 x3 x4).1.1) = k0_pay4 x0 x1 x3 := by
  rw [View.read_writes_eq_canon _ _ _ (coverInitScores c i a0 h0 a1 h1 a2 h2 a3 h3 a4 h4 a5 h5 a6 h6 hc1 hc2 x0 x1 x2 x3 x4)]
  unfold runInit
  dsimp only
  rw [View.canon_unit_zero hz]
  simp only [View.readAt_eq_ld, h0.read_unread, h1.read_unread, h3.read_unread, View.ld_unit_zero (S := S2000x256) hz, View.ld_unit_zero (S := S82x256) hz, View.ld_unit_zero (S := S1x82) hz]

theorem init_deltas_value (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : k0_cond1 i = 1#1) (hc2 : ¬ k0_cond2 i = 1#1) (x0 : Vec F S2000x256 .f32) (x1 : Vec F S82x256 .f32) (x2 : Vec F S324x256 .f32) (x3 : Vec F S1x82 .f32) (x4 : Vec F S1x324 .f32) :
    viewDeltas.read (Elt F) (viewDeltas.writes (Elt F) viewDeltas.junk (runInit c i a0 h0 a1 h1 a2 h2 a3 h3 a4 h4 a5 h5 a6 h6 hc1 hc2 x0 x1 x2 x3 x4).1.2) = k0_pay5 x0 x2 x4 := by
  rw [View.read_writes_eq_canon _ _ _ (coverInitDeltas c i a0 h0 a1 h1 a2 h2 a3 h3 a4 h4 a5 h5 a6 h6 hc1 hc2 x0 x1 x2 x3 x4)]
  unfold runInit
  dsimp only
  rw [View.canon_unit_zero hz]
  simp only [View.readAt_eq_ld, h0.read_unread, h2.read_unread, h4.read_unread, View.ld_unit_zero (S := S2000x256) hz, View.ld_unit_zero (S := S324x256) hz, View.ld_unit_zero (S := S1x324) hz]

theorem accum_scores_value (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : ¬ k0_cond1 i = 1#1) (hc2 : k0_cond2 i = 1#1) (x0 : Vec F S2000x256 .f32) (x1 : Vec F S82x256 .f32) (x2 : Vec F S324x256 .f32) (x3 : Vec F S1x82 .f32) (x4 : Vec F S1x324 .f32) (y5 : Vec F S2000x82 .f32) (y6 : Vec F S2000x324 .f32) :
    viewScores.read (Elt F) (viewScores.writes (Elt F) viewScores.junk (runAccum c i a0 h0 a1 h1 a2 h2 a3 h3 a4 h4 a5 h5 a6 h6 hc1 hc2 x0 x1 x2 x3 x4 y5 y6).1.1) = k0_pay6 x0 x1 y5 := by
  rw [View.read_writes_eq_canon _ _ _ (coverAccumScores c i a0 h0 a1 h1 a2 h2 a3 h3 a4 h4 a5 h5 a6 h6 hc1 hc2 x0 x1 x2 x3 x4 y5 y6)]
  unfold runAccum
  dsimp only
  rw [View.canon_unit_zero hz]
  simp only [View.readAt_eq_ld, h0.read_unread, h1.read_unread, h5.read_unread, View.ld_unit_zero (S := S2000x256) hz, View.ld_unit_zero (S := S82x256) hz, View.ld_unit_zero (S := S2000x82) hz]

theorem accum_deltas_value (c : Dev nD) (i : grid0.Coords) (a0 : Memref sig .tc .vmem S2000x256 .f32) (h0 : a0.IsWhole) (a1 : Memref sig .tc .vmem S82x256 .f32) (h1 : a1.IsWhole) (a2 : Memref sig .tc .vmem S324x256 .f32) (h2 : a2.IsWhole) (a3 : Memref sig .tc .vmem S1x82 .f32) (h3 : a3.IsWhole) (a4 : Memref sig .tc .vmem S1x324 .f32) (h4 : a4.IsWhole) (a5 : Memref sig .tc .vmem S2000x82 .f32) (h5 : a5.IsWhole) (a6 : Memref sig .tc .vmem S2000x324 .f32) (h6 : a6.IsWhole)
    (hc1 : ¬ k0_cond1 i = 1#1) (hc2 : k0_cond2 i = 1#1) (x0 : Vec F S2000x256 .f32) (x1 : Vec F S82x256 .f32) (x2 : Vec F S324x256 .f32) (x3 : Vec F S1x82 .f32) (x4 : Vec F S1x324 .f32) (y5 : Vec F S2000x82 .f32) (y6 : Vec F S2000x324 .f32) :
    viewDeltas.read (Elt F) (viewDeltas.writes (Elt F) viewDeltas.junk (runAccum c i a0 h0 a1 h1 a2 h2 a3 h3 a4 h4 a5 h5 a6 h6 hc1 hc2 x0 x1 x2 x3 x4 y5 y6).1.2) = k0_pay7 x0 x2 y6 := by
  rw [View.read_writes_eq_canon _ _ _ (coverAccumDeltas c i a0 h0 a1 h1 a2 h2 a3 h3 a4 h4 a5 h5 a6 h6 hc1 hc2 x0 x1 x2 x3 x4 y5 y6)]
  unfold runAccum
  dsimp only
  rw [View.canon_unit_zero hz]
  simp only [View.readAt_eq_ld, h0.read_unread, h2.read_unread, h6.read_unread, View.ld_unit_zero (S := S2000x256) hz, View.ld_unit_zero (S := S324x256) hz, View.ld_unit_zero (S := S2000x324) hz]

end Cert.KernelIdeal.HeadValue

end
-- ==== Proof.Value.PiecesAt.lean ====
/-
  What each branch leaves in the two output blocks at a grid point, as values of the blocks the point loads: the
  statements of the previous module at the point's staging memrefs and input blocks.
-/
import proofs.«138140_g32169305047750_cont_8to1_b_1656_7_alg».proof.Proof.Value.Pieces

set_option maxRecDepth 16384

noncomputable section

namespace Cert.KernelIdeal.HeadValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)

/-- On the first chunk of a row block the scores block ends at (partial product + class-bias row). -/
theorem initOut_scores (c : Dev nD) (t : Fin cfg0.N) (ht : t.val % 4 = 0) :
    (initOut m c t ht).1 = k0_pay4 (iblk m c 0 t) (iblk m c 1 t) (iblk m c 3 t) := by
  unfold initOut
  dsimp only
  have e := init_scores_value (F := F) c (grid0.coords t) (ms0 t) (hs0 t) (ms1 t) (hs1 t) (ms2 t) (hs2 t) (ms3 t) (hs3 t) (ms4 t) (hs4 t) (ms5 t) (hs5 t) (ms6 t) (hs6 t)
    ((first_chunk_iff t).mpr ht) (fun h => (later_chunk_iff t).mp h ht) (iblk m c 0 t) (iblk m c 1 t) (iblk m c 2 t) (iblk m c 3 t) (iblk m c 4 t)
  exact e

/-- and the box-deltas block at (partial product + box-bias row). -/
theorem initOut_deltas (c : Dev nD) (t : Fin cfg0.N) (ht : t.val % 4 = 0) :
    (initOut m c t ht).2 = k0_pay5 (iblk m c 0 t) (iblk m c 2 t) (iblk m c 4 t) := by
  unfold initOut
  dsimp only
  have e := init_deltas_value (F := F) c (grid0.coords t) (ms0 t) (hs0 t) (ms1 t) (hs1 t) (ms2 t) (hs2 t) (ms3 t) (hs3 t) (ms4 t) (hs4 t) (ms5 t) (hs5 t) (ms6 t) (hs6 t)
    ((first_chunk_iff t).mpr ht) (fun h => (later_chunk_iff t).mp h ht) (iblk m c 0 t) (iblk m c 1 t) (iblk m c 2 t) (iblk m c 3 t) (iblk m c 4 t)
  exact e

/-- On a later chunk the scores block ends at (its running contents + partial product). -/
theorem accumOut_scores (c : Dev nD) (t : Fin cfg0.N) (ht : ¬ t.val % 4 = 0) (y : Vec F S2000x82 .f32 × Vec F S2000x324 .f32) :
    (accumOut m c t ht y).1 = k0_pay6 (iblk m c 0 t) (iblk m c 1 t) y.1 := by
  unfold accumOut
  dsimp only
  have e := accum_scores_value (F := F) c (grid0.coords t) (ms0 t) (hs0 t) (ms1 t) (hs1 t) (ms2 t) (hs2 t) (ms3 t) (hs3 t) (ms4 t) (hs4 t) (ms5 t) (hs5 t) (ms6 t) (hs6 t)
    (fun h => ht ((first_chunk_iff t).mp h)) ((later_chunk_iff t).mpr ht) (iblk m c 0 t) (iblk m c 1 t) (iblk m c 2 t) (iblk m c 3 t) (iblk m c 4 t) y.1 y.2
  exact e

/-- and the box-deltas block likewise. -/
theorem accumOut_deltas (c : Dev nD) (t : Fin cfg0.N) (ht : ¬ t.val % 4 = 0) (y : Vec F S2000x82 .f32 × Vec F S2000x324 .f32) :
    (accumOut m c t ht y).2 = k0_pay7 (iblk m c 0 t) (iblk m c 2 t) y.2 := by
  unfold accumOut
  dsimp only
  have e := accum_deltas_value (F := F) c (grid0.coords t) (ms0 t) (hs0 t) (ms1 t) (hs1 t) (ms2 t) (hs2 t) (ms3 t) (hs3 t) (ms4 t) (hs4 t) (ms5 t) (hs5 t) (ms6 t) (hs6 t)
    (fun h => ht ((first_chunk_iff t).mp h)) ((later_chunk_iff t).mpr ht) (iblk m c 0 t) (iblk m c 1 t) (iblk m c 2 t) (iblk m c 3 t) (iblk m c 4 t) y.1 y.2
  exact e

end Cert.KernelIdeal.HeadValue

end
-- ==== Proof.Value.BlockReads.lean ====
/-
  Where each window's block sits in its array. The grid walks 10 row blocks of 2000 rows, and within a row block 4
  chunks of 256 columns of the contracted axis: at point `t` the block of `x` is rows 2000·(t/4) … and columns
  256·(t%4) …, the blocks of the two weight matrices are all their rows and the same columns, the two bias rows are
  whole, and the two output blocks are rows 2000·(t/4) … and all columns. The bias rows the region finds are the
  bias vectors with a unit axis put in front.
-/
import proofs.«138140_g32169305047750_cont_8to1_b_1656_7_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HeadValue

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-! ## The index maps over the grid -/

theorem index_x : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem index_wcls : ∀ t : Fin cfg0.N, win0_1.index t (0 : Fin 2) = 0 ∧ win0_1.index t (1 : Fin 2) = t.val % 4 :=
  (by decide +kernel : ∀ t : Fin grid0.N, win0_1.index t (0 : Fin 2) = 0 ∧ win0_1.index t (1 : Fin 2) = t.val % 4)
theorem index_wbox : ∀ t : Fin cfg0.N, win0_2.index t (0 : Fin 2) = 0 ∧ win0_2.index t (1 : Fin 2) = t.val % 4 :=
  (by decide +kernel : ∀ t : Fin grid0.N, win0_2.index t (0 : Fin 2) = 0 ∧ win0_2.index t (1 : Fin 2) = t.val % 4)
theorem index_bcls : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_bbox : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_scores : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)
theorem index_deltas : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)

/-! ## Each input block, read at coordinates, is an entry of its array -/

/-- Entry `(p, k)` of the block of `x` at point `t` is `x` at row `2000·(t/4) + p`, column `256·(t%4) + k`. -/
theorem xblock_apply (c : Dev nD) (t : Fin cfg0.N) (p : Fin 2000) (k : Fin 256) (r : Fin 20000) (j : Fin 1024)
    (hr : r.val = 2000 * (t.val / 4) + p.val) (hj : j.val = 256 * (t.val % 4) + k.val) :
    (iblk m c 0 t : Vec F S2000x256 .f32) (ix2 p k) = (V m c main_arg0 : Vec F S20000x1024 .f32) (ix2 r j) := by
  unfold iblk
  rw [View.read_apply]
  show V m c main_arg0 _ = V m c main_arg0 _
  congr 1
  funext a
  apply Fin.ext
  match a with
  | ⟨0, _⟩ => show win0_0.index t 0 * 2000 + 1 * p.val = r.val; rw [(index_x t).1, hr]; omega
  | ⟨1, _⟩ => show win0_0.index t 1 * 256 + 1 * k.val = j.val; rw [(index_x t).2, hj]; omega

/-- Entry `(q, k)` of the block of the class weights at point `t` is the weights at row `q`, column `256·(t%4) + k`. -/
theorem wclsblock_apply (c : Dev nD) (t : Fin cfg0.N) (q : Fin 82) (k : Fin 256) (j : Fin 1024)
    (hj : j.val = 256 * (t.val % 4) + k.val) :
    (iblk m c 1 t : Vec F S82x256 .f32) (ix2 q k) = (V m c main_arg1 : Vec F S82x1024 .f32) (ix2 q j) := by
  unfold iblk
  rw [View.read_apply]
  show V m c main_arg1 _ = V m c main_arg1 _
  congr 1
  funext a
  apply Fin.ext
  match a with
  | ⟨0, _⟩ => show win0_1.index t 0 * 82 + 1 * q.val = q.val; rw [(index_wcls t).1]; omega
  | ⟨1, _⟩ => show win0_1.index t 1 * 256 + 1 * k.val = j.val; rw [(index_wcls t).2, hj]; omega

/-- The same for the box weights. -/
theorem wboxblock_apply (c : Dev nD) (t : Fin cfg0.N) (q : Fin 324) (k : Fin 256) (j : Fin 1024)
    (hj : j.val = 256 * (t.val % 4) + k.val) :
    (iblk m c 2 t : Vec F S324x256 .f32) (ix2 q k) = (V m c main_arg3 : Vec F S324x1024 .f32) (ix2 q j) := by
  unfold iblk
  rw [View.read_apply]
  show V m c main_arg3 _ = V m c main_arg3 _
  congr 1
  funext a
  apply Fin.ext
  match a with
  | ⟨0, _⟩ => show win0_2.index t 0 * 324 + 1 * q.val = q.val; rw [(index_wbox t).1]; omega
  | ⟨1, _⟩ => show win0_2.index t 1 * 256 + 1 * k.val = j.val; rw [(index_wbox t).2, hj]; omega

/-- The class-bias row the region finds is the bias vector with a unit axis in front. -/
theorem V_bias_cls (c : Dev nD) : (V m c main_v0 : Vec F S1x82 .f32)
    = shapeCast S1x82 (m ((c : Thread nD τ).loc main_arg2) : Vec F S82 .f32) shapeCasts_S82_S1x82 := by
  dsimp only [V, hostOps0]; after_results; rfl

/-- The box-bias row likewise. -/
theorem V_bias_box (c : Dev nD) : (V m c main_v1 : Vec F S1x324 .f32)
    = shapeCast S1x324 (m ((c : Thread nD τ).loc main_arg4) : Vec F S324 .f32) shapeCasts_S324_S1x324 := by
  dsimp only [V, hostOps0]; after_results; rfl

/-- Entry `(0, q)` of the class-bias block at any point is the class bias at `q`. -/
theorem bclsblock_apply (c : Dev nD) (t : Fin cfg0.N) (q : Fin 82) :
    (iblk m c 3 t : Vec F S1x82 .f32) (ix2 (0 : Fin 1) q) = (m ((c : Thread nD τ).loc main_arg2) : Vec F S82 .f32) (ix1 q) := by
  have e : (iblk m c 3 t : Vec F S1x82 .f32) (ix2 (0 : Fin 1) q) = (V m c main_v0 : Vec F S1x82 .f32) (ix2 (0 : Fin 1) q) := by
    unfold iblk
    rw [View.read_apply]
    show V m c main_v0 _ = V m c main_v0 _
    congr 1
    funext a
    apply Fin.ext
    match a with
    | ⟨0, _⟩ => show win0_3.index t 0 * 1 + 1 * 0 = 0; rw [(index_bcls t).1]
    | ⟨1, _⟩ => show win0_3.index t 1 * 82 + 1 * q.val = q.val; rw [(index_bcls t).2]; omega
  rw [e, V_bias_cls]
  exact shapeCast_a_1a_apply _ _ (0 : Fin 1) q

/-- Entry `(0, q)` of the box-bias block at any point is the box bias at `q`. -/
theorem bboxblock_apply (c : Dev nD) (t : Fin cfg0.N) (q : Fin 324) :
    (iblk m c 4 t : Vec F S1x324 .f32) (ix2 (0 : Fin 1) q) = (m ((c : Thread nD τ).loc main_arg4) : Vec F S324 .f32) (ix1 q) := by
  have e : (iblk m c 4 t : Vec F S1x324 .f32) (ix2 (0 : Fin 1) q) = (V m c main_v1 : Vec F S1x324 .f32) (ix2 (0 : Fin 1) q) := by
    unfold iblk
    rw [View.read_apply]
    show V m c main_v1 _ = V m c main_v1 _
    congr 1
    funext a
    apply Fin.ext
    match a with
    | ⟨0, _⟩ => show win0_4.index t 0 * 1 + 1 * 0 = 0; rw [(index_bbox t).1]
    | ⟨1, _⟩ => show win0_4.index t 1 * 324 + 1 * q.val = q.val; rw [(index_bbox t).2]; omega
  rw [e, V_bias_box]
  exact shapeCast_a_1a_apply _ _ (0 : Fin 1) q

end Cert.KernelIdeal.HeadValue

end
-- ==== Proof.PayloadAt.lean ====
import proofs.«138140_g32169305047750_cont_8to1_b_1656_7_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The stored values of the kernel body, read at an index

The body multiplies a `[2000, 256]` block of `x` with a `[82, 256]` and a `[324, 256]` block of the
two weight arrays (contracting the `256` columns of the chunk) and stores, on the first chunk,
"partial product plus bias row", and on each later chunk "running value plus partial product".
Here each of the four stored values is read at an index `(p, q)`, over the extended reals:
a sum of `256` products, plus one more term.
-/

set_option synthInstance.maxSize 4096

noncomputable section

namespace Cert.KernelIdeal.HeadValue

open Cert.KernelIdeal Cert.KernelIdeal.Gen Idealize.ShloMosaic Idealize.ShloMosaic.ValueIdx

/-- In the product of the `[2000, 256]` block with the `[82, 256]` block (both contracted on their
second axis), the left operand's row is the output row. -/
theorem lhs82_0 (j : S2000x82.Idx) (k : dot_S2000x256_S82x256_S2000x82_1_1_0_0_n_n.contr.Idx) :
    (dot_S2000x256_S82x256_S2000x82_1_1_0_0_n_n.lhsIdx j k 0).val = (j 0).val := by
  unfold DotDims.lhsIdx
  rw [dif_neg (show ¬(0 : Fin S2000x256.rank) ∈ dot_S2000x256_S82x256_S2000x82_1_1_0_0_n_n.lhsBatch by decide),
    dif_pos (show (0 : Fin S2000x256.rank) ∈ dot_S2000x256_S82x256_S2000x82_1_1_0_0_n_n.lhsNonContracting by decide)]
  rfl

/-- In the same product the right operand's row is the output column. -/
theorem rhs82_0 (j : S2000x82.Idx) (k : dot_S2000x256_S82x256_S2000x82_1_1_0_0_n_n.contr.Idx) :
    (dot_S2000x256_S82x256_S2000x82_1_1_0_0_n_n.rhsIdx j k 0).val = (j 1).val := by
  unfold DotDims.rhsIdx
  rw [dif_neg (show ¬(0 : Fin S82x256.rank) ∈ dot_S2000x256_S82x256_S2000x82_1_1_0_0_n_n.rhsBatch by decide),
    dif_pos (show (0 : Fin S82x256.rank) ∈ dot_S2000x256_S82x256_S2000x82_1_1_0_0_n_n.rhsNonContracting by decide)]
  rfl

/-- In the product of the `[2000, 256]` block with the `[324, 256]` block (both contracted on their
second axis), the left operand's row is the output row. -/
theorem lhs324_0 (j : S2000x324.Idx) (k : dot_S2000x256_S324x256_S2000x324_1_1_0_0_n_n.contr.Idx) :
    (dot_S2000x256_S324x256_S2000x324_1_1_0_0_n_n.lhsIdx j k 0).val = (j 0).val := by
  unfold DotDims.lhsIdx
  rw [dif_neg (show ¬(0 : Fin S2000x256.rank) ∈ dot_S2000x256_S324x256_S2000x324_1_1_0_0_n_n.lhsBatch by decide),
    dif_pos (show (0 : Fin S2000x256.rank) ∈ dot_S2000x256_S324x256_S2000x324_1_1_0_0_n_n.lhsNonContracting by decide)]
  rfl

/-- In the same product the right operand's row is the output column. -/
theorem rhs324_0 (j : S2000x324.Idx) (k : dot_S2000x256_S324x256_S2000x324_1_1_0_0_n_n.contr.Idx) :
    (dot_S2000x256_S324x256_S2000x324_1_1_0_0_n_n.rhsIdx j k 0).val = (j 1).val := by
  unfold DotDims.rhsIdx
  rw [dif_neg (show ¬(0 : Fin S324x256.rank) ∈ dot_S2000x256_S324x256_S2000x324_1_1_0_0_n_n.rhsBatch by decide),
    dif_pos (show (0 : Fin S324x256.rank) ∈ dot_S2000x256_S324x256_S2000x324_1_1_0_0_n_n.rhsNonContracting by decide)]
  rfl

/-- The partial product of one chunk, at `(p, q)`: the sum over the chunk's `256` columns of
`v0 (p, k) * v2 (q, k)`.  The narrowing of the operands is the identity on extended reals and the
accumulator is the zero array. -/
theorem pay2_apply (v0 : Vec Ideal S2000x256 .f32) (v2 : Vec Ideal S82x256 .f32) (p : Fin 2000) (q : Fin 82) :
    k0_pay2 (F := Ideal) v0 v2 (ix2 p q) = ∑ k : Fin 256, v0 (ix2 p k) * v2 (ix2 q k) := by
  unfold k0_pay2 k0_pay1
  simp only [matmul]
  rw [Ideal.matmul_constant_zero_apply,
    ← Equiv.sum_comp (contrEquiv1 dot_S2000x256_S82x256_S2000x82_1_1_0_0_n_n 256 rfl rfl).symm]
  refine Finset.sum_congr rfl fun k _ => ?_
  have hk := contrEquiv1_symm_val dot_S2000x256_S82x256_S2000x82_1_1_0_0_n_n 256 rfl rfl k
  -- the left operand is read at (p, k)
  have el : dot_S2000x256_S82x256_S2000x82_1_1_0_0_n_n.lhsIdx (ix2 p q)
      ((contrEquiv1 dot_S2000x256_S82x256_S2000x82_1_1_0_0_n_n 256 rfl rfl).symm k) = ix2 p k :=
    funext fun a => Fin.ext (by
      match a with
      | ⟨0, _⟩ => exact lhs82_0 _ _
      | ⟨1, _⟩ => exact (dot_S2000x256_S82x256_S2000x82_1_1_0_0_n_n.lhsIdx_val_of_single rfl _ _).trans hk)
  -- the right operand is read at (q, k)
  have er : dot_S2000x256_S82x256_S2000x82_1_1_0_0_n_n.rhsIdx (ix2 p q)
      ((contrEquiv1 dot_S2000x256_S82x256_S2000x82_1_1_0_0_n_n 256 rfl rfl).symm k) = ix2 q k :=
    funext fun a => Fin.ext (by
      match a with
      | ⟨0, _⟩ => exact rhs82_0 _ _
      | ⟨1, _⟩ => exact (dot_S2000x256_S82x256_S2000x82_1_1_0_0_n_n.rhsIdx_val_of_single rfl _ _).trans hk)
  rw [el, er]
  rfl

/-- The partial product of one chunk, at `(p, q)`: the sum over the chunk's `256` columns of
`v0 (p, k) * v4 (q, k)`.  The narrowing of the operands is the identity on extended reals and the
accumulator is the zero array. -/
theorem pay3_apply (v0 : Vec Ideal S2000x256 .f32) (v4 : Vec Ideal S324x256 .f32) (p : Fin 2000) (q : Fin 324) :
    k0_pay3 (F := Ideal) v0 v4 (ix2 p q) = ∑ k : Fin 256, v0 (ix2 p k) * v4 (ix2 q k) := by
  unfold k0_pay3 k0_pay1
  simp only [matmul]
  rw [Ideal.matmul_constant_zero_apply,
    ← Equiv.sum_comp (contrEquiv1 dot_S2000x256_S324x256_S2000x324_1_1_0_0_n_n 256 rfl rfl).symm]
  refine Finset.sum_congr rfl fun k _ => ?_
  have hk := contrEquiv1_symm_val dot_S2000x256_S324x256_S2000x324_1_1_0_0_n_n 256 rfl rfl k
  -- the left operand is read at (p, k)
  have el : dot_S2000x256_S324x256_S2000x324_1_1_0_0_n_n.lhsIdx (ix2 p q)
      ((contrEquiv1 dot_S2000x256_S324x256_S2000x324_1_1_0_0_n_n 256 rfl rfl).symm k) = ix2 p k :=
    funext fun a => Fin.ext (by
      match a with
      | ⟨0, _⟩ => exact lhs324_0 _ _
      | ⟨1, _⟩ => exact (dot_S2000x256_S324x256_S2000x324_1_1_0_0_n_n.lhsIdx_val_of_single rfl _ _).trans hk)
  -- the right operand is read at (q, k)
  have er : dot_S2000x256_S324x256_S2000x324_1_1_0_0_n_n.rhsIdx (ix2 p q)
      ((contrEquiv1 dot_S2000x256_S324x256_S2000x324_1_1_0_0_n_n 256 rfl rfl).symm k) = ix2 q k :=
    funext fun a => Fin.ext (by
      match a with
      | ⟨0, _⟩ => exact rhs324_0 _ _
      | ⟨1, _⟩ => exact (dot_S2000x256_S324x256_S2000x324_1_1_0_0_n_n.rhsIdx_val_of_single rfl _ _).trans hk)
  rw [el, er]
  rfl

/-- The value stored on the first chunk, at `(p, q)`: the chunk's partial product plus the bias
row at column `q` (the one-row bias is broadcast over the `2000` rows). -/
theorem pay4_apply (v0 : Vec Ideal S2000x256 .f32) (v2 : Vec Ideal S82x256 .f32) (v14 : Vec Ideal S1x82 .f32) (p : Fin 2000) (q : Fin 82) :
    k0_pay4 (F := Ideal) v0 v2 v14 (ix2 p q) = (∑ k : Fin 256, v0 (ix2 p k) * v2 (ix2 q k)) + v14 (ix2 (0 : Fin 1) q) := by
  unfold k0_pay4
  rw [addf_apply, pay2_apply, shapeCast_self]
  exact congrArg (_ + ·) (broadcastTo_1b_ab_apply v14 broadcasts_S1x82_S2000x82 p q)

/-- The value stored on a later chunk, at `(p, q)`: the running value there plus the chunk's
partial product. -/
theorem pay6_apply (v0 : Vec Ideal S2000x256 .f32) (v2 : Vec Ideal S82x256 .f32) (v14 : Vec Ideal S2000x82 .f32) (p : Fin 2000) (q : Fin 82) :
    k0_pay6 (F := Ideal) v0 v2 v14 (ix2 p q) = v14 (ix2 p q) + ∑ k : Fin 256, v0 (ix2 p k) * v2 (ix2 q k) := by
  unfold k0_pay6
  rw [addf_apply, shapeCast_self, pay2_apply]

/-- The value stored on the first chunk, at `(p, q)`: the chunk's partial product plus the bias
row at column `q` (the one-row bias is broadcast over the `2000` rows). -/
theorem pay5_apply (v0 : Vec Ideal S2000x256 .f32) (v4 : Vec Ideal S324x256 .f32) (v19 : Vec Ideal S1x324 .f32) (p : Fin 2000) (q : Fin 324) :
    k0_pay5 (F := Ideal) v0 v4 v19 (ix2 p q) = (∑ k : Fin 256, v0 (ix2 p k) * v4 (ix2 q k)) + v19 (ix2 (0 : Fin 1) q) := by
  unfold k0_pay5
  rw [addf_apply, pay3_apply, shapeCast_self]
  exact congrArg (_ + ·) (broadcastTo_1b_ab_apply v19 broadcasts_S1x324_S2000x324 p q)

/-- The value stored on a later chunk, at `(p, q)`: the running value there plus the chunk's
partial product. -/
theorem pay7_apply (v0 : Vec Ideal S2000x256 .f32) (v4 : Vec Ideal S324x256 .f32) (v18 : Vec Ideal S2000x324 .f32) (p : Fin 2000) (q : Fin 324) :
    k0_pay7 (F := Ideal) v0 v4 v18 (ix2 p q) = v18 (ix2 p q) + ∑ k : Fin 256, v0 (ix2 p k) * v4 (ix2 q k) := by
  unfold k0_pay7
  rw [addf_apply, shapeCast_self, pay3_apply]

end Cert.KernelIdeal.HeadValue

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.Value.Invariant.lean ====
/-
  The running sum, at the ideal instance (floats are extended reals, every operation exact). Write, for a row `r` of
  `x` and a row `q` of a weight matrix, term `j` of their inner product as x[r, j] · w[q, j]. The contracted axis of
  1024 columns is cut in 4 chunks of 256. By induction on the grid point, each output block holds after a point the
  chunks formed so far plus the bias — the additions are those of an additive commutative monoid, so nothing is
  asked of the inputs.
-/
import proofs.«138140_g32169305047750_cont_8to1_b_1656_7_alg».proof.Proof.Value.PiecesAt
import proofs.«138140_g32169305047750_cont_8to1_b_1656_7_alg».proof.Proof.Value.BlockReads
import proofs.«138140_g32169305047750_cont_8to1_b_1656_7_alg».proof.Proof.PayloadAt
import proofs.«138140_g32169305047750_cont_8to1_b_1656_7_alg».proof.Proof.LibChunkedSum

set_option maxRecDepth 16384

noncomputable section

namespace Cert.KernelIdeal.HeadValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

open Cert.Lib.ChunkedSum

variable (m : (ℓ : Loc nD τ sig) → Buf (Elt Ideal) ℓ)

/-- Term `j` of the inner product of row `r` of `X` with row `q` of `W`; zero beyond the 1024 columns. -/
def term {C : ℕ} (X : (⟨2, ![20000, 1024]⟩ : Shape).Idx → EReal) (W : (⟨2, ![C, 1024]⟩ : Shape).Idx → EReal)
    (r : Fin 20000) (q : Fin C) (j : ℕ) : EReal :=
  if h : j < 1024 then X (ix2 r ⟨j, h⟩) * W (ix2 q ⟨j, h⟩) else 0

/-- The partial product the body forms at point `t` for the scores head, at row `p` of the row block and column `q`, is
    chunk `t % 4` of the inner product of row `r = 2000·(t/4) + p` of `x` with row `q` of the weights (`xb`, `wb` the
    point's blocks of `x` and of the weights). -/
theorem chunk_scores (c : Dev nD) (t : Fin cfg0.N) (p : Fin 2000) (q : Fin 82) (r : Fin 20000)
    (hr : r.val = 2000 * (t.val / 4) + p.val)
    (xb : Vec Ideal S2000x256 .f32) (wb : Vec Ideal S82x256 .f32) (hx : xb = iblk m c 0 t) (hw : wb = iblk m c 1 t) :
    (∑ k : Fin 256, xb (ix2 p k) * wb (ix2 q k))
      = chunk 256 (term (V m c main_arg0) (V m c main_arg1) r q) (t.val % 4) := by
  unfold chunk
  refine Finset.sum_congr rfl fun k _ => ?_
  have hlt : 256 * (t.val % 4) + k.val < 1024 := by
    have := k.isLt; have := Nat.mod_lt t.val (by norm_num : 4 > 0); omega
  have ex := xblock_apply m c t p k r ⟨_, hlt⟩ hr rfl
  have ew := wclsblock_apply m c t q k ⟨_, hlt⟩ rfl
  rw [hx, hw, ex, ew]
  unfold term
  rw [dif_pos hlt]

/-- THE RUNNING SUM of the scores head. After the body at position `n` of the grid the scores block holds, at row `p` and
    column `q`, the first `n % 4 + 1` chunks of the inner product of row `2000·(n/4) + p` of `x` with row `q` of the
    weights, plus the bias at `q`: the first chunk of a row block stores chunk 0 plus the bias, each later chunk adds
    its own to what the point before left. -/
theorem scores_at (c : Dev nD) : ∀ (n : ℕ) (hn : n < cfg0.N) (p : Fin 2000) (q : Fin 82) (r : Fin 20000),
    r.val = 2000 * (n / 4) + p.val →
    (outsAt m c n hn).1 (ix2 p q)
      = (∑ s ∈ Finset.range (n % 4 + 1), chunk 256 (term (V m c main_arg0) (V m c main_arg1) r q) s)
        + (m ((c : Thread nD τ).loc main_arg2) : Vec Ideal S82 .f32) (ix1 q) := by
  intro n
  induction n with
  | zero =>
    intro hn p q r hr
    have h0 : (⟨0, hn⟩ : Fin cfg0.N).val % 4 = 0 := Nat.zero_mod _
    have e := outsAt_init m c ⟨0, hn⟩ h0
    dsimp only at e
    have e1 := initOut_scores m c ⟨0, hn⟩ h0
    have e2 := pay4_apply (iblk m c 0 ⟨0, hn⟩) (iblk m c 1 ⟨0, hn⟩) (iblk m c 3 ⟨0, hn⟩) p q
    have e3 := chunk_scores m c ⟨0, hn⟩ p q r hr (iblk m c 0 ⟨0, hn⟩) (iblk m c 1 ⟨0, hn⟩) rfl rfl
    have e4 := bclsblock_apply m c ⟨0, hn⟩ q
    rw [e, e1, e2, e3, e4]
    exact acc_first 256 _ _
  | succ n ih =>
    intro hn p q r hr
    by_cases h0 : (n + 1) % 4 = 0
    · have e := outsAt_init m c ⟨n + 1, hn⟩ h0
      dsimp only at e
      have e1 := initOut_scores m c ⟨n + 1, hn⟩ h0
      have e2 := pay4_apply (iblk m c 0 ⟨n + 1, hn⟩) (iblk m c 1 ⟨n + 1, hn⟩) (iblk m c 3 ⟨n + 1, hn⟩) p q
      have e3 := chunk_scores m c ⟨n + 1, hn⟩ p q r hr (iblk m c 0 ⟨n + 1, hn⟩) (iblk m c 1 ⟨n + 1, hn⟩) rfl rfl
      have e4 := bclsblock_apply m c ⟨n + 1, hn⟩ q
      rw [e, e1, e2, e3, e4]
      dsimp only
      rw [h0]
      exact acc_first 256 _ _
    · have e : outsAt m c (n + 1) hn = accumOut m c ⟨n + 1, hn⟩ h0 (outsAt m c n (Nat.lt_of_succ_lt hn)) :=
        outsAt_accum m c ⟨n + 1, hn⟩ h0
      have e1 := accumOut_scores m c ⟨n + 1, hn⟩ h0 (outsAt m c n (Nat.lt_of_succ_lt hn))
      have e2 := pay6_apply (iblk m c 0 ⟨n + 1, hn⟩) (iblk m c 1 ⟨n + 1, hn⟩) (outsAt m c n (Nat.lt_of_succ_lt hn)).1 p q
      have e3 := chunk_scores m c ⟨n + 1, hn⟩ p q r hr (iblk m c 0 ⟨n + 1, hn⟩) (iblk m c 1 ⟨n + 1, hn⟩) rfl rfl
      have hr' : r.val = 2000 * (n / 4) + p.val := by omega
      have ih' := ih (Nat.lt_of_succ_lt hn) p q r hr'
      obtain ⟨k, hk⟩ : ∃ k, (n + 1) % 4 = k + 1 := ⟨(n + 1) % 4 - 1, by omega⟩
      have hk' : n % 4 + 1 = k + 1 := by omega
      rw [hk'] at ih'
      rw [e, e1, e2, e3, ih']
      dsimp only
      rw [hk]
      exact acc_step 256 k _ _

/-- The partial product the body forms at point `t` for the deltas head, at row `p` of the row block and column `q`, is
    chunk `t % 4` of the inner product of row `r = 2000·(t/4) + p` of `x` with row `q` of the weights (`xb`, `wb` the
    point's blocks of `x` and of the weights). -/
theorem chunk_deltas (c : Dev nD) (t : Fin cfg0.N) (p : Fin 2000) (q : Fin 324) (r : Fin 20000)
    (hr : r.val = 2000 * (t.val / 4) + p.val)
    (xb : Vec Ideal S2000x256 .f32) (wb : Vec Ideal S324x256 .f32) (hx : xb = iblk m c 0 t) (hw : wb = iblk m c 2 t) :
    (∑ k : Fin 256, xb (ix2 p k) * wb (ix2 q k))
      = chunk 256 (term (V m c main_arg0) (V m c main_arg3) r q) (t.val % 4) := by
  unfold chunk
  refine Finset.sum_congr rfl fun k _ => ?_
  have hlt : 256 * (t.val % 4) + k.val < 1024 := by
    have := k.isLt; have := Nat.mod_lt t.val (by norm_num : 4 > 0); omega
  have ex := xblock_apply m c t p k r ⟨_, hlt⟩ hr rfl
  have ew := wboxblock_apply m c t q k ⟨_, hlt⟩ rfl
  rw [hx, hw, ex, ew]
  unfold term
  rw [dif_pos hlt]

/-- THE RUNNING SUM of the deltas head. After the body at position `n` of the grid the deltas block holds, at row `p` and
    column `q`, the first `n % 4 + 1` chunks of the inner product of row `2000·(n/4) + p` of `x` with row `q` of the
    weights, plus the bias at `q`: the first chunk of a row block stores chunk 0 plus the bias, each later chunk adds
    its own to what the point before left. -/
theorem deltas_at (c : Dev nD) : ∀ (n : ℕ) (hn : n < cfg0.N) (p : Fin 2000) (q : Fin 324) (r : Fin 20000),
    r.val = 2000 * (n / 4) + p.val →
    (outsAt m c n hn).2 (ix2 p q)
      = (∑ s ∈ Finset.range (n % 4 + 1), chunk 256 (term (V m c main_arg0) (V m c main_arg3) r q) s)
        + (m ((c : Thread nD τ).loc main_arg4) : Vec Ideal S324 .f32) (ix1 q) := by
  intro n
  induction n with
  | zero =>
    intro hn p q r hr
    have h0 : (⟨0, hn⟩ : Fin cfg0.N).val % 4 = 0 := Nat.zero_mod _
    have e := outsAt_init m c ⟨0, hn⟩ h0
    dsimp only at e
    have e1 := initOut_deltas m c ⟨0, hn⟩ h0
    have e2 := pay5_apply (iblk m c 0 ⟨0, hn⟩) (iblk m c 2 ⟨0, hn⟩) (iblk m c 4 ⟨0, hn⟩) p q
    have e3 := chunk_deltas m c ⟨0, hn⟩ p q r hr (iblk m c 0 ⟨0, hn⟩) (iblk m c 2 ⟨0, hn⟩) rfl rfl
    have e4 := bboxblock_apply m c ⟨0, hn⟩ q
    rw [e, e1, e2, e3, e4]
    exact acc_first 256 _ _
  | succ n ih =>
    intro hn p q r hr
    by_cases h0 : (n + 1) % 4 = 0
    · have e := outsAt_init m c ⟨n + 1, hn⟩ h0
      dsimp only at e
      have e1 := initOut_deltas m c ⟨n + 1, hn⟩ h0
      have e2 := pay5_apply (iblk m c 0 ⟨n + 1, hn⟩) (iblk m c 2 ⟨n + 1, hn⟩) (iblk m c 4 ⟨n + 1, hn⟩) p q
      have e3 := chunk_deltas m c ⟨n + 1, hn⟩ p q r hr (iblk m c 0 ⟨n + 1, hn⟩) (iblk m c 2 ⟨n + 1, hn⟩) rfl rfl
      have e4 := bboxblock_apply m c ⟨n + 1, hn⟩ q
      rw [e, e1, e2, e3, e4]
      dsimp only
      rw [h0]
      exact acc_first 256 _ _
    · have e : outsAt m c (n + 1) hn = accumOut m c ⟨n + 1, hn⟩ h0 (outsAt m c n (Nat.lt_of_succ_lt hn)) :=
        outsAt_accum m c ⟨n + 1, hn⟩ h0
      have e1 := accumOut_deltas m c ⟨n + 1, hn⟩ h0 (outsAt m c n (Nat.lt_of_succ_lt hn))
      have e2 := pay7_apply (iblk m c 0 ⟨n + 1, hn⟩) (iblk m c 2 ⟨n + 1, hn⟩) (outsAt m c n (Nat.lt_of_succ_lt hn)).2 p q
      have e3 := chunk_deltas m c ⟨n + 1, hn⟩ p q r hr (iblk m c 0 ⟨n + 1, hn⟩) (iblk m c 2 ⟨n + 1, hn⟩) rfl rfl
      have hr' : r.val = 2000 * (n / 4) + p.val := by omega
      have ih' := ih (Nat.lt_of_succ_lt hn) p q r hr'
      obtain ⟨k, hk⟩ : ∃ k, (n + 1) % 4 = k + 1 := ⟨(n + 1) % 4 - 1, by omega⟩
      have hk' : n % 4 + 1 = k + 1 := by omega
      rw [hk'] at ih'
      rw [e, e1, e2, e3, ih']
      dsimp only
      rw [hk]
      exact acc_step 256 k _ _

end Cert.KernelIdeal.HeadValue

end
-- ==== Proof.Value.Cover.lean ====
import proofs.«138140_g32169305047750_cont_8to1_b_1656_7_alg».proof.Proof.Gen.KernelIdeal.Frame
import Idealize.ShloMosaic.Lib.Pipeline.Value
import Idealize.ShloMosaic.Lib.ValueIdx

/-!
# The write-back blocks tile the two output arrays

The grid has `10` row blocks times `4` chunks; point `t` is `4 * (row block) + chunk`.  Each output
array (`20000` rows) is written back in blocks of `2000` rows and all columns, at the last chunk of
each row block (the points that are `3` modulo `4`).  So row `r` is covered by the point
`4 * (r / 2000) + 3`.  The row stays symbolic; only the `40` points are enumerated.
-/

set_option maxRecDepth 16384

noncomputable section

namespace Cert.KernelIdeal.HeadValue

open Cert.KernelIdeal Cert.KernelIdeal.Gen Idealize.ShloMosaic Idealize.ShloMosaic.TcCoe Idealize.SL.Sem Idealize.ShloMosaic.ValueIdx

/-- The block index of the scores array at a grid point, decided once over the `40` points: the
row block is the point's number divided by `4` (a point is `4 * (row block) + chunk`), the column
block is `0`. -/
theorem idx_scores : ∀ t : Fin cfg0.N, win0_5.index t (0 : Fin 2) = t.val / 4 ∧ win0_5.index t (1 : Fin 2) = 0 :=
  (by decide +kernel : ∀ t : Fin grid0.N, _)

/-- An index of the scores array is in the block of point `t` iff, on each axis, its coordinate is
in the block's range: from `index * extent` up to `extent` further. -/
theorem mem_blk_scores (t : Fin cfg0.N) (i : S20000x82.Idx) :
    i ∈ ((cfg0.win 5).blk t).view.set ↔ ∀ a : Fin 2, win0_5.index t a * S2000x82.size a ≤ (i a).val
      ∧ (i a).val < win0_5.index t a * S2000x82.size a + S2000x82.size a := by
  show i ∈ ((View.whole main_v2_0).slice (win0_5.rect t)).set ↔ _
  rw [View.set_slice_whole, Rect.mem_set_unit]
  exact Iff.rfl

/-- Every index `(r, q)` of the scores array lies in the block written back at the point
`4 * (r / 2000) + 3`: the last chunk of the row block that holds row `r`.  That point is below `40`
because `r < 20000`, it is `3` modulo `4`, and its block is rows `2000 * (r / 2000)` to
`2000 * (r / 2000) + 1999` and all `82` columns. -/
theorem cover_scores_idx (i : S20000x82.Idx) :
    ∃ t : Fin cfg0.N, (cfg0.win 5).flush t = true ∧ i ∈ ((cfg0.win 5).blk t).view.set := by
  have hr : (i 0).val < 20000 := (i 0).isLt
  have hq : (i 1).val < 82 := (i 1).isLt
  have hN : cfg0.N = 40 := N_0
  have ht : 4 * ((i 0).val / 2000) + 3 < cfg0.N := by rw [hN]; omega
  refine ⟨⟨4 * ((i 0).val / 2000) + 3, ht⟩, (flush0_5 _).mpr ?_, ?_⟩
  · show (4 * ((i 0).val / 2000) + 3) % 4 = 3
    omega
  · rw [mem_blk_scores]
    obtain ⟨e0, e1⟩ := idx_scores ⟨4 * ((i 0).val / 2000) + 3, ht⟩
    have e0' : win0_5.index ⟨4 * ((i 0).val / 2000) + 3, ht⟩ (0 : Fin 2) = (i 0).val / 2000 := by
      rw [e0]
      show (4 * ((i 0).val / 2000) + 3) / 4 = (i 0).val / 2000
      omega
    intro a
    match a with
    | ⟨0, _⟩ =>
      show win0_5.index ⟨4 * ((i 0).val / 2000) + 3, ht⟩ (0 : Fin 2) * 2000 ≤ (i 0).val
        ∧ (i 0).val < win0_5.index ⟨4 * ((i 0).val / 2000) + 3, ht⟩ (0 : Fin 2) * 2000 + 2000
      rw [e0']
      omega
    | ⟨1, _⟩ =>
      show win0_5.index ⟨4 * ((i 0).val / 2000) + 3, ht⟩ (1 : Fin 2) * 82 ≤ (i 1).val
        ∧ (i 1).val < win0_5.index ⟨4 * ((i 0).val / 2000) + 3, ht⟩ (1 : Fin 2) * 82 + 82
      rw [e1]
      omega

/-- The blocks written back tile the scores array: every index is in the block of some
write-back point. -/
theorem cover_scores (c : Dev nD) : ∀ i : ((cfg0.win 5).arr.view.loc (c.tc : Thread nD τ)).2.ty.Idx,
    ∃ t : Fin cfg0.N, (cfg0.win 5).flush t = true ∧ i ∈ ((cfg0.win 5).blk t).view.set :=
  fun i => cover_scores_idx i

/-- The block index of the deltas array at a grid point, decided once over the `40` points: the
row block is the point's number divided by `4` (a point is `4 * (row block) + chunk`), the column
block is `0`. -/
theorem idx_deltas : ∀ t : Fin cfg0.N, win0_6.index t (0 : Fin 2) = t.val / 4 ∧ win0_6.index t (1 : Fin 2) = 0 :=
  (by decide +kernel : ∀ t : Fin grid0.N, _)

/-- An index of the deltas array is in the block of point `t` iff, on each axis, its coordinate is
in the block's range: from `index * extent` up to `extent` further. -/
theorem mem_blk_deltas (t : Fin cfg0.N) (i : S20000x324.Idx) :
    i ∈ ((cfg0.win 6).blk t).view.set ↔ ∀ a : Fin 2, win0_6.index t a * S2000x324.size a ≤ (i a).val
      ∧ (i a).val < win0_6.index t a * S2000x324.size a + S2000x324.size a := by
  show i ∈ ((View.whole main_v2_1).slice (win0_6.rect t)).set ↔ _
  rw [View.set_slice_whole, Rect.mem_set_unit]
  exact Iff.rfl

/-- Every index `(r, q)` of the deltas array lies in the block written back at the point
`4 * (r / 2000) + 3`: the last chunk of the row block that holds row `r`.  That point is below `40`
because `r < 20000`, it is `3` modulo `4`, and its block is rows `2000 * (r / 2000)` to
`2000 * (r / 2000) + 1999` and all `324` columns. -/
theorem cover_deltas_idx (i : S20000x324.Idx) :
    ∃ t : Fin cfg0.N, (cfg0.win 6).flush t = true ∧ i ∈ ((cfg0.win 6).blk t).view.set := by
  have hr : (i 0).val < 20000 := (i 0).isLt
  have hq : (i 1).val < 324 := (i 1).isLt
  have hN : cfg0.N = 40 := N_0
  have ht : 4 * ((i 0).val / 2000) + 3 < cfg0.N := by rw [hN]; omega
  refine ⟨⟨4 * ((i 0).val / 2000) + 3, ht⟩, (flush0_6 _).mpr ?_, ?_⟩
  · show (4 * ((i 0).val / 2000) + 3) % 4 = 3
    omega
  · rw [mem_blk_deltas]
    obtain ⟨e0, e1⟩ := idx_deltas ⟨4 * ((i 0).val / 2000) + 3, ht⟩
    have e0' : win0_6.index ⟨4 * ((i 0).val / 2000) + 3, ht⟩ (0 : Fin 2) = (i 0).val / 2000 := by
      rw [e0]
      show (4 * ((i 0).val / 2000) + 3) / 4 = (i 0).val / 2000
      omega
    intro a
    match a with
    | ⟨0, _⟩ =>
      show win0_6.index ⟨4 * ((i 0).val / 2000) + 3, ht⟩ (0 : Fin 2) * 2000 ≤ (i 0).val
        ∧ (i 0).val < win0_6.index ⟨4 * ((i 0).val / 2000) + 3, ht⟩ (0 : Fin 2) * 2000 + 2000
      rw [e0']
      omega
    | ⟨1, _⟩ =>
      show win0_6.index ⟨4 * ((i 0).val / 2000) + 3, ht⟩ (1 : Fin 2) * 324 ≤ (i 1).val
        ∧ (i 1).val < win0_6.index ⟨4 * ((i 0).val / 2000) + 3, ht⟩ (1 : Fin 2) * 324 + 324
      rw [e1]
      omega

/-- The blocks written back tile the deltas array: every index is in the block of some
write-back point. -/
theorem cover_deltas (c : Dev nD) : ∀ i : ((cfg0.win 6).arr.view.loc (c.tc : Thread nD τ)).2.ty.Idx,
    ∃ t : Fin cfg0.N, (cfg0.win 6).flush t = true ∧ i ∈ ((cfg0.win 6).blk t).view.set :=
  fun i => cover_deltas_idx i

end Cert.KernelIdeal.HeadValue

end
-- ==== Proof.RefHeads.lean ====
import proofs.«138140_g32169305047750_cont_8to1_b_1656_7_alg».proof.Proof.Gen.ReferenceIdeal.Read

/-!
# The reference computes two linear heads

The reference program forms `x · wᵀ` over the whole contracted axis of `1024` columns and
then adds the bias, once for each of its two results.  Read index by index, each result is
the function `linearHead` below: entry `(r, c)` is the sum over `k` of `x (r, k) * w (c, k)`,
plus `b c`.  Values are extended reals; the statement is an identity of functions and uses no
property of `+` or `*`.
-/

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-- One linear head, index by index: entry `(r, c)` is row `r` of `x` against row `c` of `w`
(the sum over the `K` columns of the products), plus the bias at `c`. -/
def linearHead {R C K : ℕ} (x : (⟨2, ![R, K]⟩ : Shape).Idx → EReal) (w : (⟨2, ![C, K]⟩ : Shape).Idx → EReal)
    (b : (⟨1, ![C]⟩ : Shape).Idx → EReal) : (⟨2, ![R, C]⟩ : Shape).Idx → EReal :=
  fun i => (∑ k : Fin K, x (ValueIdx.ix2 (i 0) k) * w (ValueIdx.ix2 (i 1) k)) + b (ValueIdx.ix1 (i 1))

/-- The first result (the scores) is the linear head of `x0` with weights `x1` and bias `x2`. -/
theorem scores_eq (x0 : (⟨S20000x1024, .f32⟩ : BufTy).Contents (Elt Ideal)) (x1 : (⟨S82x1024, .f32⟩ : BufTy).Contents (Elt Ideal))
    (x2 : (⟨S82, .f32⟩ : BufTy).Contents (Elt Ideal)) :
    Read.val_main_v4 (F := Ideal) x0 x1 x2 = linearHead (R := 20000) (C := 82) (K := 1024) x0 x1 x2 := by
  funext i
  -- the left operand is read at (row of i, k)
  have el : ∀ k : Fin 1024, lidx_main_v1 i k = ValueIdx.ix2 (i 0) k := fun k =>
    funext fun a => Fin.ext (by match a with | ⟨0, _⟩ => rfl | ⟨1, _⟩ => rfl)
  -- the transposed weights are read at (column of i, k)
  have er : ∀ k : Fin 1024, idx_main_v0 (ridx_main_v1 i k) = ValueIdx.ix2 (i 1) k := fun k =>
    funext fun a => Fin.ext (by match a with | ⟨0, _⟩ => rfl | ⟨1, _⟩ => rfl)
  -- the twice-broadcast bias is read at the column of i
  have eb : idx_main_v2 (idx_main_v3 i) = ValueIdx.ix1 (i 1) :=
    funext fun a => Fin.ext (by match a with | ⟨0, _⟩ => rfl)
  rw [val_main_v4_apply, val_main_v1_apply, val_main_v3_apply, val_main_v2_apply]
  simp only [val_main_v0_apply, el, er, eb, Ideal.addf_def]
  rfl

/-- The second result (the deltas) is the linear head of `x0` with weights `x3` and bias `x4`. -/
theorem deltas_eq (x0 : (⟨S20000x1024, .f32⟩ : BufTy).Contents (Elt Ideal)) (x3 : (⟨S324x1024, .f32⟩ : BufTy).Contents (Elt Ideal))
    (x4 : (⟨S324, .f32⟩ : BufTy).Contents (Elt Ideal)) :
    Read.val_main_v9 (F := Ideal) x0 x3 x4 = linearHead (R := 20000) (C := 324) (K := 1024) x0 x3 x4 := by
  funext i
  -- the left operand is read at (row of i, k)
  have el : ∀ k : Fin 1024, lidx_main_v6 i k = ValueIdx.ix2 (i 0) k := fun k =>
    funext fun a => Fin.ext (by match a with | ⟨0, _⟩ => rfl | ⟨1, _⟩ => rfl)
  -- the transposed weights are read at (column of i, k)
  have er : ∀ k : Fin 1024, idx_main_v5 (ridx_main_v6 i k) = ValueIdx.ix2 (i 1) k := fun k =>
    funext fun a => Fin.ext (by match a with | ⟨0, _⟩ => rfl | ⟨1, _⟩ => rfl)
  -- the twice-broadcast bias is read at the column of i
  have eb : idx_main_v7 (idx_main_v8 i) = ValueIdx.ix1 (i 1) :=
    funext fun a => Fin.ext (by match a with | ⟨0, _⟩ => rfl)
  rw [val_main_v9_apply, val_main_v6_apply, val_main_v8_apply, val_main_v7_apply]
  simp only [val_main_v5_apply, el, er, eb, Ideal.addf_def]
  rfl

end Cert.ReferenceIdeal.RefValue

end
-- ==== Proof.Value.Final.lean ====
/-
  From blocks to arrays. The two output blocks are written back to their arrays after the last chunk of each row
  block, when the running sum holds all four chunks: the block written is then that row block of the linear head
  x·Wᵀ + b. The ten write-back points' blocks tile each output array, so each ends holding the linear head of the
  argument arrays; and the run leaves the five argument arrays as it found them.
-/
import proofs.«138140_g32169305047750_cont_8to1_b_1656_7_alg».proof.Proof.Value.Invariant
import proofs.«138140_g32169305047750_cont_8to1_b_1656_7_alg».proof.Proof.Value.Cover
import proofs.«138140_g32169305047750_cont_8to1_b_1656_7_alg».proof.Proof.RefHeads

set_option maxRecDepth 16384

noncomputable section

namespace Cert.KernelIdeal.HeadValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

open Cert.Lib.ChunkedSum
open Cert.ReferenceIdeal.RefValue (linearHead)

variable (m : (ℓ : Loc nD τ sig) → Buf (Elt Ideal) ℓ) (ρ : Dev nD → PrngReg)

/-- What the scores array ends holding: the linear head of the argument arrays, index by index. -/
abbrev scoresResult (c : Dev nD) : Buf (Elt Ideal) ((c : Thread nD τ).loc main_v2_0) :=
  linearHead (R := 20000) (C := 82) (K := 1024) (m ((c : Thread nD τ).loc main_arg0)) (m ((c : Thread nD τ).loc main_arg1))
    (m ((c : Thread nD τ).loc main_arg2))

/-- What a write-back point (the last chunk of a row block) writes to the scores array is that row block of the
    linear head: the running sum has all four chunks there, and four chunks of 256 are the 1024 columns. -/
theorem flushed_scores (c : Dev nD) (t : Fin cfg0.N) (hf : (cfg0.win 5).flush t = true) :
    (dats m 0 c).flushed 5 t = ((cfg0.win 5).blk t).view.read (Elt Ideal) (scoresResult m c) := by
  have h3 : t.val % 4 = 3 := (flush0_5 t).mp hf
  have hN : t.val < 40 := lt_of_lt_of_eq t.isLt (show cfg0.N = 40 from N_0)
  show (cfg0.win 5).cut (grid0.coords t) ((dats m 0 c).after 5 t) = _
  rw [after_5]
  funext y
  obtain ⟨p, q, rfl⟩ : ∃ (p : Fin 2000) (q : Fin 82), y = ix2 p q := ⟨y 0, y 1, eq_ix2 y⟩
  rw [View.read_apply]
  have hrlt : 2000 * (t.val / 4) + p.val < 20000 := by have := p.isLt; omega
  refine (scores_at m c t.val t.isLt p q ⟨_, hrlt⟩ rfl).trans ?_
  have eidx : ((cfg0.win 5).blk t).view.emb (ix2 p q) = ix2 (⟨2000 * (t.val / 4) + p.val, hrlt⟩ : Fin 20000) q := by
    funext a
    apply Fin.ext
    match a with
    | ⟨0, _⟩ => show win0_5.index t 0 * 2000 + 1 * p.val = 2000 * (t.val / 4) + p.val; rw [(index_scores t).1]; omega
    | ⟨1, _⟩ => show win0_5.index t 1 * 82 + 1 * q.val = q.val; rw [(index_scores t).2]; omega
  rw [eidx, h3]
  unfold scoresResult linearHead
  dsimp only
  rw [show (3 + 1 : ℕ) = 4 from rfl, sum_chunks_1024]
  refine congrArg₂ (· + ·) (Finset.sum_congr rfl fun j _ => ?_) rfl
  unfold term
  rw [dif_pos j.isLt, V_main_arg0, V_main_arg1]

/-- The write-back points' blocks tile the scores array, so it ends holding the linear head. -/
theorem final_scores (c : Dev nD) : (dats m 0 c).arrAt 5 cfg0.N = scoresResult m c :=
  (dats m 0 c).arrAt_eq_of_cover 5 (scoresResult m c) (flushed_scores m c) (cover_scores c)

/-- What the deltas array ends holding: the linear head of the argument arrays, index by index. -/
abbrev deltasResult (c : Dev nD) : Buf (Elt Ideal) ((c : Thread nD τ).loc main_v2_1) :=
  linearHead (R := 20000) (C := 324) (K := 1024) (m ((c : Thread nD τ).loc main_arg0)) (m ((c : Thread nD τ).loc main_arg3))
    (m ((c : Thread nD τ).loc main_arg4))

/-- What a write-back point (the last chunk of a row block) writes to the deltas array is that row block of the
    linear head: the running sum has all four chunks there, and four chunks of 256 are the 1024 columns. -/
theorem flushed_deltas (c : Dev nD) (t : Fin cfg0.N) (hf : (cfg0.win 6).flush t = true) :
    (dats m 0 c).flushed 6 t = ((cfg0.win 6).blk t).view.read (Elt Ideal) (deltasResult m c) := by
  have h3 : t.val % 4 = 3 := (flush0_6 t).mp hf
  have hN : t.val < 40 := lt_of_lt_of_eq t.isLt (show cfg0.N = 40 from N_0)
  show (cfg0.win 6).cut (grid0.coords t) ((dats m 0 c).after 6 t) = _
  rw [after_6]
  funext y
  obtain ⟨p, q, rfl⟩ : ∃ (p : Fin 2000) (q : Fin 324), y = ix2 p q := ⟨y 0, y 1, eq_ix2 y⟩
  rw [View.read_apply]
  have hrlt : 2000 * (t.val / 4) + p.val < 20000 := by have := p.isLt; omega
  refine (deltas_at m c t.val t.isLt p q ⟨_, hrlt⟩ rfl).trans ?_
  have eidx : ((cfg0.win 6).blk t).view.emb (ix2 p q) = ix2 (⟨2000 * (t.val / 4) + p.val, hrlt⟩ : Fin 20000) q := by
    funext a
    apply Fin.ext
    match a with
    | ⟨0, _⟩ => show win0_6.index t 0 * 2000 + 1 * p.val = 2000 * (t.val / 4) + p.val; rw [(index_deltas t).1]; omega
    | ⟨1, _⟩ => show win0_6.index t 1 * 324 + 1 * q.val = q.val; rw [(index_deltas t).2]; omega
  rw [eidx, h3]
  unfold deltasResult linearHead
  dsimp only
  rw [show (3 + 1 : ℕ) = 4 from rfl, sum_chunks_1024]
  refine congrArg₂ (· + ·) (Finset.sum_congr rfl fun j _ => ?_) rfl
  unfold term
  rw [dif_pos j.isLt, V_main_arg0, V_main_arg3]

/-- The write-back points' blocks tile the deltas array, so it ends holding the linear head. -/
theorem final_deltas (c : Dev nD) : (dats m 0 c).arrAt 6 cfg0.N = deltasResult m c :=
  (dats m 0 c).arrAt_eq_of_cover 6 (deltasResult m c) (flushed_deltas m c) (cover_deltas c)

/-- The idealized kernel's run, read: both result arrays at the linear heads of the arguments, the arguments unchanged. -/
theorem run : θ_run defs (onTc (τ := τ) (main (F := Ideal))) ⟨m, fun _ => 0, ρ⟩ fun r => ∀ c : Dev nD,
      r.2.mem ((c.tc : Thread nD τ).loc main_v2_0) = scoresResult m c
      ∧ r.2.mem ((c.tc : Thread nD τ).loc main_v2_1) = deltasResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final_scores m c), ((h c).1 6).trans (final_deltas m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c)⟩)
    (run_main m ρ)

end Cert.KernelIdeal.HeadValue

end
-- ==== Proof.lean ====
/-
  Two linear heads over 20000 proposals, scores = x·W_clsᵀ + b_cls and deltas = x·W_bboxᵀ + b_bbox, computed by one
  pipelined kernel against the plain matrix products.

  The kernel walks a grid of 10 row blocks (2000 rows) × 4 chunks (256 columns) of the contracted axis of 1024
  columns. At each point it forms the partial product of the row block with the chunk's columns of each weight
  matrix; on the first chunk of a row block it overwrites each output block with (partial product + bias), on each
  later chunk it adds the partial product to what the block holds; after the last chunk the blocks are written back.
  The operands are narrowed to bf16 before the products, which at the ideal instance (floats are extended reals,
  every operation exact, a change of format the identity) changes nothing.

  Frames. Each program runs to the end, faults nowhere and leaves its argument arrays unchanged: for the two kernel
  programs by the body's triple at every grid point (one run per branch, the output blocks' contents defined by
  recursion on the point) under the generated launch lemmas; for the reference by its generated run.

  Equality at the ideal instance. By induction on the point, after chunk k of a row block an output block holds
  (chunk 0 + … + chunk k) + bias, where chunk p is the sum over its 256 columns of x[r, j]·w[q, j]; the four chunks
  are the whole sum over the 1024 columns, so what is written back is the row block of x·wᵀ + b, and the write-backs
  tile the arrays. The reference's result is the same function of the arguments. Only associativity and
  commutativity of addition on the extended reals are used, which hold at the infinities too: the precondition is
  never opened.
-/
import proofs.«138140_g32169305047750_cont_8to1_b_1656_7_alg».proof.Defs
import proofs.«138140_g32169305047750_cont_8to1_b_1656_7_alg».proof.Proof.Gen.Kernel
import proofs.«138140_g32169305047750_cont_8to1_b_1656_7_alg».proof.Proof.Gen.KernelIdeal
import proofs.«138140_g32169305047750_cont_8to1_b_1656_7_alg».proof.Proof.Gen.ReferenceIdeal
import proofs.«138140_g32169305047750_cont_8to1_b_1656_7_alg».proof.Proof.Gen.ReferenceIdeal.Run
import proofs.«138140_g32169305047750_cont_8to1_b_1656_7_alg».proof.Proof.Gen.ReferenceIdeal.Read
import proofs.«138140_g32169305047750_cont_8to1_b_1656_7_alg».proof.Proof.Gen.Pre_finite_inputs
import proofs.«138140_g32169305047750_cont_8to1_b_1656_7_alg».proof.Proof.Kernel.Obligation
import proofs.«138140_g32169305047750_cont_8to1_b_1656_7_alg».proof.Proof.KernelIdeal.Obligation
import proofs.«138140_g32169305047750_cont_8to1_b_1656_7_alg».proof.Proof.Value.Final
import proofs.«138140_g32169305047750_cont_8to1_b_1656_7_alg».proof.Proof.RefHeads
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Hand.frame m ρ

/-- So does its idealization. -/
theorem frame_ideal : Cert.frame_KernelIdeal := fun m ρ _ => Cert.KernelIdeal.Hand.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- At the ideal instance both programs end with each result array at the linear head of the arguments. -/
theorem algebraic : Cert.algebraic_KernelIdeal_ReferenceIdeal := by
  intro m ρ m' ρ' _ hagree
  refine ⟨fun c => Cert.KernelIdeal.HeadValue.scoresResult m c, fun c => Cert.KernelIdeal.HeadValue.deltasResult m c,
    Cert.KernelIdeal.HeadValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v4_eq, Cert.ReferenceIdeal.RefValue.scores_eq,
      (hagree c).1, (hagree c).2.1, (hagree c).2.2.1]
  · rw [Cert.ReferenceIdeal.Read.val_main_v9_eq, Cert.ReferenceIdeal.RefValue.deltas_eq,
      (hagree c).1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
